-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000x128 : Shape := ⟨2, ![800000, 128]⟩
abbrev S800000 : Shape := ⟨1, ![800000]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x256 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S800000x128 .f32) (main_arg2 : IVec S800000 32) (main_arg3 : IVec S800000 32) (main_arg4 : FVec F S128x256 .f32) (main_arg5 : FVec F S128 .f32) (main_arg6 : FVec F S128x256 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S800000x128 : Shape := ⟨2, ![800000, 128]⟩
abbrev S800000 : Shape := ⟨1, ![800000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S_ : Shape := ⟨0, ![]⟩
abbrev S800000x1 : Shape := ⟨2, ![800000, 1]⟩
abbrev S8000x128 : Shape := ⟨2, ![8000, 128]⟩
abbrev S100000 : Shape := ⟨1, ![100000]⟩
abbrev S100000x1 : Shape := ⟨2, ![100000, 1]⟩
abbrev S5000x128 : Shape := ⟨2, ![5000, 128]⟩
abbrev S5000x1 : Shape := ⟨2, ![5000, 1]⟩
abbrev S100000x1x128 : Shape := ⟨3, ![100000, 1, 128]⟩
abbrev S800000x1x128 : Shape := ⟨3, ![800000, 1, 128]⟩

abbrev nBuf : Space → Nat
  | .hbm => 71
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S1x128, .f32⟩
  | .hbm, ⟨17, _⟩ => ⟨S1x128, .f32⟩
  | .hbm, ⟨18, _⟩ => ⟨S100000x128, .bf16⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .bf16⟩
  | .hbm, ⟨28, _⟩ => ⟨S800000x128, .f32⟩
  | .hbm, ⟨29, _⟩ => ⟨S_, .f32⟩
  | .hbm, ⟨30, _⟩ => ⟨S100000x128, .f32⟩
  | .hbm, ⟨31, _⟩ => ⟨S800000x1, .i32⟩
  | .hbm, ⟨32, _⟩ => ⟨S100000x128, .f32⟩
  | .hbm, ⟨33, _⟩ => ⟨S_, .f32⟩
  | .hbm, ⟨34, _⟩ => ⟨S800000, .f32⟩
  | .hbm, ⟨35, _⟩ => ⟨S_, .f32⟩
  | .hbm, ⟨36, _⟩ => ⟨S100000, .f32⟩
  | .hbm, ⟨37, _⟩ => ⟨S800000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S800000x128, .f32⟩
  | .hbm, ⟨68, _⟩ => ⟨S800000x128, .f32⟩
  | .hbm, ⟨69, _⟩ => ⟨S100000x1x128, .f32⟩
  | .hbm, ⟨70, _⟩ => ⟨S800000x1x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .f32⟩
  | .local _ .vmem, ⟨3, _⟩ => ⟨S8000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S8000x128, .f32⟩
  | .local _ .vmem, ⟨8, _⟩ => ⟨S8000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  bcast_S_S800000x128 : S_.BroadcastsInDim S800000x128 (![] : Fin 0 → Fin S800000x128.rank)
  bcast_S100000x128_S100000x1x128_0_2 : S100000x128.BroadcastsInDim S100000x1x128 (![0, 2] : Fin 2 → Fin S100000x1x128.rank)
  bcast_S800000x128_S800000x1x128_0_2 : S800000x128.BroadcastsInDim S800000x1x128 (![0, 2] : Fin 2 → Fin S800000x1x128.rank)
  gather_S100000x128_S800000x1_S800000x128_1_0_n_n_0_1_1128_wf : GatherDims.WF S100000x128 S800000x1 S800000x128 [1] [0] [] [0] [] 1 ![1, 128]
  dot_S8000x128_S128x128_S8000x128_1_0_0_1_n_n_wf : DotDims.WF S8000x128 S128x128 S8000x128 [1] [0] [0] [1] [] []
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S800000x128.size a
  hwx0_5 : ∀ i : grid0.Coords, EltTy.bits .f32 = 32 ∨ (Rect.block (s := S800000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v17) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S800000x128 : Shape := ⟨2, ![800000, 128]⟩
abbrev S800000 : Shape := ⟨1, ![800000]⟩
abbrev S128x256 : Shape := ⟨2, ![128, 256]⟩
abbrev S128 : Shape := ⟨1, ![128]⟩
abbrev S100000x1x128 : Shape := ⟨3, ![100000, 1, 128]⟩
abbrev S800000x1x128 : Shape := ⟨3, ![800000, 1, 128]⟩
abbrev S_ : Shape := ⟨0, ![]⟩
abbrev S800000x1 : Shape := ⟨2, ![800000, 1]⟩
abbrev S800000x1x256 : Shape := ⟨3, ![800000, 1, 256]⟩
abbrev S1x1x128 : Shape := ⟨3, ![1, 1, 128]⟩
abbrev S100000 : Shape := ⟨1, ![100000]⟩
abbrev S100000x1x1 : Shape := ⟨3, ![100000, 1, 1]⟩
abbrev S100000x1x256 : Shape := ⟨3, ![100000, 1, 256]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S100000x1x128, .f32⟩
  | .hbm, ⟨9, _⟩ => ⟨S800000x1x128, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x1x128, .f32⟩
  | .hbm, ⟨19, _⟩ => ⟨S800000x1x256, .f32⟩
  | .hbm, ⟨20, _⟩ => ⟨S800000x1x128, .f32⟩
  | .hbm, ⟨21, _⟩ => ⟨S1x1x128, .f32⟩
  | .hbm, ⟨22, _⟩ => ⟨S800000x1x128, .f32⟩
  | .hbm, ⟨23, _⟩ => ⟨S800000x1x128, .f32⟩
  | .hbm, ⟨24, _⟩ => ⟨S_, .f32⟩
  | .hbm, ⟨25, _⟩ => ⟨S100000x1x128, .f32⟩
  | .hbm, ⟨26, _⟩ => ⟨S800000x1, .i32⟩
  | .hbm, ⟨27, _⟩ => ⟨S100000x1x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S100000, .f32⟩
  | .hbm, ⟨32, _⟩ => ⟨S800000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1x1, .f32⟩
  | .hbm, ⟨38, _⟩ => ⟨S100000x1x128, .f32⟩
  | .hbm, ⟨39, _⟩ => ⟨S100000x1x128, .f32⟩
  | .hbm, ⟨40, _⟩ => ⟨S100000x1x256, .f32⟩
  | .hbm, ⟨41, _⟩ => ⟨S100000x1x128, .f32⟩
  | .hbm, ⟨42, _⟩ => ⟨S1x1x128, .f32⟩
  | .hbm, ⟨43, _⟩ => ⟨S100000x1x128, .f32⟩
  | .hbm, ⟨44, _⟩ => ⟨S100000x1x128, .f32⟩
  | .hbm, ⟨45, _⟩ => ⟨S_, .f32⟩
  | .hbm, ⟨46, _⟩ => ⟨S100000x1x128, .f32⟩
  | .hbm, ⟨47, _⟩ => ⟨S100000x1x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x1x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x1x128, .f32⟩
  | .hbm, ⟨66, _⟩ => ⟨S800000x1x128, .f32⟩
  | .hbm, ⟨67, _⟩ => ⟨S_, .f32⟩
  | .hbm, ⟨68, _⟩ => ⟨S800000x1x128, .f32⟩
  | .hbm, ⟨69, _⟩ => ⟨S800000x1x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  bcast_S100000x128_S100000x1x128_0_2 : S100000x128.BroadcastsInDim S100000x1x128 (![0, 2] : Fin 2 → Fin S100000x1x128.rank)
  bcast_S800000x128_S800000x1x128_0_2 : S800000x128.BroadcastsInDim S800000x1x128 (![0, 2] : Fin 2 → Fin S800000x1x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x1x128_S800000x1x128_S800000x1x256_d2 : Shape.Concatenates [S800000x1x128, S800000x1x128] S800000x1x256 2
  bcast_S128_S1x1x128_2 : S128.BroadcastsInDim S1x1x128 (![2] : Fin 1 → Fin S1x1x128.rank)
  bcast_S1x1x128_S800000x1x128_0_1_2 : S1x1x128.BroadcastsInDim S800000x1x128 (![0, 1, 2] : Fin 3 → Fin S800000x1x128.rank)
  bcast_S_S100000x1x128 : S_.BroadcastsInDim S100000x1x128 (![] : Fin 0 → Fin S100000x1x128.rank)
  bcast_S_S100000 : S_.BroadcastsInDim S100000 (![] : Fin 0 → Fin S100000.rank)
  bcast_S100000_S100000x1x1_0 : S100000.BroadcastsInDim S100000x1x1 (![0] : Fin 1 → Fin S100000x1x1.rank)
  bcast_S100000x1x1_S100000x1x128_0_1_2 : S100000x1x1.BroadcastsInDim S100000x1x128 (![0, 1, 2] : Fin 3 → Fin S100000x1x128.rank)
  concatenates_S100000x1x128_S100000x1x128_S100000x1x256_d2 : Shape.Concatenates [S100000x1x128, S100000x1x128] S100000x1x256 2
  bcast_S1x1x128_S100000x1x128_0_1_2 : S1x1x128.BroadcastsInDim S100000x1x128 (![0, 1, 2] : Fin 3 → Fin S100000x1x128.rank)
  bcast_S_S800000x1x128 : S_.BroadcastsInDim S800000x1x128 (![] : Fin 0 → Fin S800000x1x128.rank)
  gather_S100000x1x128_S800000x1_S800000x1x128_12_0_n_n_0_1_11128_wf : GatherDims.WF S100000x1x128 S800000x1 S800000x1x128 [1, 2] [0] [] [0] [] 1 ![1, 1, 128]
  dot_S800000x1x256_S128x256_S800000x1x128_2_1_01_0_n_n_wf : DotDims.WF S800000x1x256 S128x256 S800000x1x128 [2] [1] [0, 1] [0] [] []
  scatter_S100000x1x128_S800000x1_S800000x1x128_12_0_0_1_wf : ScatterDims.WF S100000x1x128 S800000x1 S800000x1x128 [1, 2] [0] [0] 1
  scatter_S100000_S800000x1_S800000_n_0_0_1_wf : ScatterDims.WF S100000 S800000x1 S800000 [] [0] [0] 1
  dot_S100000x1x256_S128x256_S100000x1x128_2_1_01_0_n_n_wf : DotDims.WF S100000x1x256 S128x256 S100000x1x128 [2] [1] [0, 1] [0] [] []

variable [Facts₀]

def gather_S100000x1x128_S800000x1_S800000x1x128_12_0_n_n_0_1_11128 : GatherDims S100000x1x128 S800000x1 S800000x1x128 where
  offsetDims := [1, 2]
  collapsedSliceDims := [0]
  operandBatchingDims := []
  startIndicesBatchingDims := []
  startIndexMap := [0]
  indexVectorDim := 1
  sliceSizes := ![1, 1, 128]
  wf := gather_S100000x1x128_S800000x1_S800000x1x128_12_0_n_n_0_1_11128_wf
def dot_S800000x1x256_S128x256_S800000x1x128_2_1_01_0_n_n : DotDims S800000x1x256 S128x256 S800000x1x128 where
  lhsContracting := [2]
  rhsContracting := [1]
  lhsNonContracting := [0, 1]
  rhsNonContracting := [0]
  lhsBatch := []
  rhsBatch := []
  wf := dot_S800000x1x256_S128x256_S800000x1x128_2_1_01_0_n_n_wf
def scatter_S100000x1x128_S800000x1_S800000x1x128_12_0_0_1 : ScatterDims S100000x1x128 S800000x1 S800000x1x128 where
  updateWindowDims := [1, 2]
  insertedWindowDims := [0]
  scatterDimsToOperandDims := [0]
  indexVectorDim := 1
  wf := scatter_S100000x1x128_S800000x1_S800000x1x128_12_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x1x256_S128x256_S100000x1x128_2_1_01_0_n_n : DotDims S100000x1x256 S128x256 S100000x1x128 where
  lhsContracting := [2]
  rhsContracting := [1]
  lhsNonContracting := [0, 1]
  rhsNonContracting := [0]
  lhsBatch := []
  rhsBatch := []
  wf := dot_S100000x1x256_S128x256_S100000x1x128_2_1_01_0_n_n_wf

class Facts : Prop extends Facts₀ where

variable [Facts]
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.MsgRegion.lean ====
/-
  The first kernel region: the edge messages.

  Each grid point `t` of the region works on rows `8000·t … 8000·t + 7999` of its two row-blocked operands — the
  gathered source features `H` and the edge features `E`, both `800000 × 128` — and on the whole of the two
  `128 × 128` weight matrices `Wa`, `Wb` and of the `1 × 128` bias row `b`. Its body is two matrix products into a
  zero accumulator, added, plus the bias row repeated down the rows; changes of float format are the identity on
  extended reals. So entry `(r, q)` of a block is

      (∑ k, H (r, k) · Wa (k, q)) + (∑ k, E (r, k) · Wb (k, q)) + b (0, q),

  the same formula at every point, and the blocks tile the `800000 × 128` result: after the region the result array is
  that one function `msgOf H E Wa Wb b` of the arrays the region was entered with.
-/
import proofs.«130156_j85152021611247_2_alg».proof.Proof.Gen.KernelIdeal.Frame
import proofs.«130156_j85152021611247_2_alg».proof.Proof.LibPlainDot
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The edge messages as one function of the region's five arrays. -/
def msgOf (H : S800000x128.Idx → EReal) (E : S800000x128.Idx → EReal) (Wa Wb : S128x128.Idx → EReal)
    (b : S1x128.Idx → EReal) : S800000x128.Idx → EReal :=
  fun i => ((∑ k : Fin 128, H (ix2 (i 0 : Fin 800000) k) * Wa (ix2 k (i 1 : Fin 128)))
      + (∑ k : Fin 128, E (ix2 (i 0 : Fin 800000) k) * Wb (ix2 k (i 1 : Fin 128))))
    + b (ix2 (0 : Fin 1) (i 1 : Fin 128))

theorem hz2 : (![0, 0] : Fin 2 → Nat) = fun _ => 0 := funext fun a => by fin_cases a <;> rfl

/-- A `1 × 128` row repeated down 8000 rows reads, at `(p, q)`, the row at `(0, q)`. -/
theorem biasRow0_apply (x4 : S1x128.Idx → EReal) (hc : S1x128.ShapeCasts S1x128) (hb : S1x128.Broadcasts S8000x128)
    (p : Fin 8000) (q : Fin 128) :
    broadcastTo S8000x128 (shapeCast S1x128 x4 hc) hb (ix2 p q) = x4 (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if (128 : Nat) = 1 then 0 else q.val
    rw [if_neg (by decide)]

/-- The body's stored value at entry `(p, q)` of a block: the two products' entries, added, plus the bias. -/
theorem pay0_apply (x0 : Vec Ideal S8000x128 .bf16) (x1 : Vec Ideal S8000x128 .f32) (x2 x3 : Vec Ideal S128x128 .f32)
    (x4 : Vec Ideal S1x128 .f32) (p : Fin 8000) (q : Fin 128) :
    k0_pay1 (F := Ideal) x0 x1 x2 x3 x4 (ix2 p q)
      = ((∑ k : Fin 128, x0 (ix2 p k) * x2 (ix2 k q)) + (∑ k : Fin 128, x1 (ix2 p k) * x3 (ix2 k q)))
        + x4 (ix2 (0 : Fin 1) q) := by
  unfold k0_pay1
  rw [addf_apply, addf_apply, biasRow0_apply]
  rw [show dot_S8000x128_S128x128_S8000x128_1_0_0_1_n_n = DotDims.plain 8000 128 128 from rfl]
  dsimp only [matmul]
  rw [Cert.Lib.PlainDot.matmul_zero_apply, Cert.Lib.PlainDot.matmul_zero_apply]
  simp only [shapeCast_self, truncf_apply]

/-! ## The region's result array -/

section Region

variable (V : (c : Dev nD) → (b : Ref sig .tc) → Buf (Elt Ideal) ((c : Thread nD τ).loc b))

/-- The block index of every window at every grid point: the three row-blocked windows are at block row `t`, the
    weights and the bias always at their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What grid point `t` writes back is block `t` of the edge messages of the arrays the region was entered with. -/
theorem flushed0 (c : Dev nD) (t : Fin cfg0.N) :
    (dat0 V c).flushed 5 t = ((cfg0.win 5).blk t).view.read (Elt Ideal)
      (msgOf (V c main_v17) (V c main_arg1) (V c main_v1) (V c main_v3) (V c main_v8)) := by
  show (cfg0.win 5).cut (grid0.coords t) ((dat0 V c).after 5 t) = _
  rw [after0_5]
  unfold out0_5
  rw [View.canon_unit_zero hz2]
  simp only [View.ld_unit_zero (S := S8000x128) hz2, View.ld_unit_zero (S := S128x128) hz2,
    View.ld_unit_zero (S := S1x128) hz2]
  obtain ⟨e00, e01, e10, e11, e20, e21, e30, e31, e40, e41, e50, e51⟩ := idx_facts0 t
  funext j
  obtain ⟨p, q, rfl⟩ : ∃ (p : Fin 8000) (q : Fin 128), j = ix2 p q := ⟨j 0, j 1, eq_ix2 j⟩
  refine (pay0_apply (iblk0 V c 0 t) (iblk0 V c 1 t) (iblk0 V c 2 t) (iblk0 V c 3 t) (iblk0 V c 4 t) p q).trans ?_
  show _ = msgOf (V c main_v17) (V c main_arg1) (V c main_v1) (V c main_v3) (V c main_v8)
    (((cfg0.win 5).blk t).view.emb (ix2 p q))
  unfold msgOf
  have hH : ∀ k : Fin 128, iblk0 V c 0 t (ix2 p k)
      = V c main_v17 (ix2 ((((cfg0.win 5).blk t).view.emb (ix2 p q)) 0 : Fin 800000) k) := fun k => by
    show V c main_v17 (((cfg0.win 0).blk t).view.emb (ix2 p k)) = _
    refine congrArg (V c main_v17) (funext fun a => Fin.ext ?_)
    match a with
    | ⟨0, _⟩ => show win0_0.index t (0 : Fin 2) * 8000 + 1 * p.val = win0_5.index t (0 : Fin 2) * 8000 + 1 * p.val; omega
    | ⟨1, _⟩ => show win0_0.index t (1 : Fin 2) * 128 + 1 * k.val = k.val; omega
  have hE : ∀ k : Fin 128, iblk0 V c 1 t (ix2 p k)
      = V c main_arg1 (ix2 ((((cfg0.win 5).blk t).view.emb (ix2 p q)) 0 : Fin 800000) k) := fun k => by
    show V c main_arg1 (((cfg0.win 1).blk t).view.emb (ix2 p k)) = _
    refine congrArg (V c main_arg1) (funext fun a => Fin.ext ?_)
    match a with
    | ⟨0, _⟩ => show win0_1.index t (0 : Fin 2) * 8000 + 1 * p.val = win0_5.index t (0 : Fin 2) * 8000 + 1 * p.val; omega
    | ⟨1, _⟩ => show win0_1.index t (1 : Fin 2) * 128 + 1 * k.val = k.val; omega
  have hWa : ∀ k : Fin 128, iblk0 V c 2 t (ix2 k q)
      = V c main_v1 (ix2 k ((((cfg0.win 5).blk t).view.emb (ix2 p q)) 1 : Fin 128)) := fun k => by
    show V c main_v1 (((cfg0.win 2).blk t).view.emb (ix2 k q)) = _
    refine congrArg (V c main_v1) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  have hWb : ∀ k : Fin 128, iblk0 V c 3 t (ix2 k q)
      = V c main_v3 (ix2 k ((((cfg0.win 5).blk t).view.emb (ix2 p q)) 1 : Fin 128)) := fun k => by
    show V c main_v3 (((cfg0.win 3).blk t).view.emb (ix2 k q)) = _
    refine congrArg (V c main_v3) (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  have hb : iblk0 V c 4 t (ix2 (0 : Fin 1) q)
      = V c main_v8 (ix2 (0 : Fin 1) ((((cfg0.win 5).blk t).view.emb (ix2 p q)) 1 : Fin 128)) := by
    show V c main_v8 (((cfg0.win 4).blk t).view.emb (ix2 (0 : Fin 1) q)) = _
    refine congrArg (V c main_v8) (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega
  rw [hb]
  refine congrArg₂ (· + ·) (congrArg₂ (· + ·) (Finset.sum_congr rfl fun k _ => ?_) (Finset.sum_congr rfl fun k _ => ?_)) rfl
  · rw [hH k, hWa k]
  · rw [hE k, hWb k]

/-- An index of the result array is in point `t`'s block iff each coordinate is in the block's range on its axis. -/
theorem mem_blk0 (t : Fin cfg0.N) (i : S800000x128.Idx) :
    i ∈ ((cfg0.win 5).blk t).view.set ↔ ∀ a : Fin 2, win0_5.index t a * S8000x128.size a ≤ (i a).val
      ∧ (i a).val < win0_5.index t a * S8000x128.size a + S8000x128.size a := by
  show i ∈ ((View.whole main_v18).slice (win0_5.rect t)).set ↔ _
  rw [View.set_slice_whole, Rect.mem_set_unit]
  exact Iff.rfl

/-- Row `r` of the result lies in the block of point `r / 8000`: the row blocks tile the array. -/
theorem cover0 (i : S800000x128.Idx) :
    ∃ t : Fin cfg0.N, (cfg0.win 5).flush t = true ∧ i ∈ ((cfg0.win 5).blk t).view.set := by
  have hi0 : (i 0).val < 800000 := (i 0).isLt
  have hi1 : (i 1).val < 128 := (i 1).isLt
  have hN : grid0.N = 100 := N_0
  have ht : (i 0).val / 8000 < cfg0.N := by show (i 0).val / 8000 < grid0.N; rw [hN]; omega
  obtain ⟨-, -, -, -, -, -, -, -, -, -, e50, e51⟩ := idx_facts0 ⟨(i 0).val / 8000, ht⟩
  refine ⟨⟨(i 0).val / 8000, ht⟩, flush0_5 _, ?_⟩
  rw [mem_blk0]
  intro a
  match a with
  | ⟨0, _⟩ =>
    show win0_5.index ⟨(i 0).val / 8000, ht⟩ (0 : Fin 2) * 8000 ≤ (i 0).val
      ∧ (i 0).val < win0_5.index ⟨(i 0).val / 8000, ht⟩ (0 : Fin 2) * 8000 + 8000
    rw [e50]; show (i 0).val / 8000 * 8000 ≤ (i 0).val ∧ (i 0).val < (i 0).val / 8000 * 8000 + 8000; omega
  | ⟨1, _⟩ =>
    show win0_5.index ⟨(i 0).val / 8000, ht⟩ (1 : Fin 2) * 128 ≤ (i 1).val
      ∧ (i 1).val < win0_5.index ⟨(i 0).val / 8000, ht⟩ (1 : Fin 2) * 128 + 128
    rw [e51]; omega

/-- After the region its result array holds the edge messages of the arrays the region was entered with. -/
theorem final0 (c : Dev nD) :
    (dat0 V c).arrAt 5 cfg0.N = msgOf (V c main_v17) (V c main_arg1) (V c main_v1) (V c main_v3) (V c main_v8) :=
  (dat0 V c).arrAt_eq_of_cover 5 _ (fun t _ => flushed0 V c t) cover0

end Region

end Cert.KernelIdeal.Val

end
-- ==== Proof.ApplyRegion.lean ====
/-
  The second kernel region: the node update.

  Each grid point `t` works on rows `5000·t … 5000·t + 4999` of its three row-blocked operands — the node features
  `X` and the summed messages `A`, both `100000 × 128`, and the column `r` of per-node scales, `100000 × 1` — and on
  the whole of the two `128 × 128` weight matrices `Wc`, `Wd` and of the `1 × 128` bias row `b`. Its body scales each
  row of `A` by that row's entry of `r`, takes two matrix products into a zero accumulator, adds them and the bias
  row, and takes the maximum with zero; changes of float format are the identity on extended reals. So entry `(n, q)`
  of a block is

      max ((∑ k, X (n, k) · Wc (k, q)) + (∑ k, (A (n, k) · r (n, 0)) · Wd (k, q)) + b (0, q)) 0,

  the same formula at every point, and the blocks tile the `100000 × 128` result: after the region the result array is
  that one function `applyOf X A r Wc Wd b` of the arrays the region was entered with.
-/
import proofs.«130156_j85152021611247_2_alg».proof.Proof.Gen.KernelIdeal.Frame
import proofs.«130156_j85152021611247_2_alg».proof.Proof.LibPlainDot
import proofs.«130156_j85152021611247_2_alg».proof.Proof.MsgRegion
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The updated node features as one function of the region's six arrays. -/
def applyOf (X A : S100000x128.Idx → EReal) (r : S100000x1.Idx → EReal) (Wc Wd : S128x128.Idx → EReal)
    (b : S1x128.Idx → EReal) : S100000x128.Idx → EReal :=
  fun i => max (((∑ k : Fin 128, X (ix2 (i 0 : Fin 100000) k) * Wc (ix2 k (i 1 : Fin 128)))
      + (∑ k : Fin 128, (A (ix2 (i 0 : Fin 100000) k) * r (ix2 (i 0 : Fin 100000) (0 : Fin 1))) * Wd (ix2 k (i 1 : Fin 128))))
    + b (ix2 (0 : Fin 1) (i 1 : Fin 128))) (Ideal.ofBits .f32 0x00000000#32)

/-- A `1 × 128` row repeated down 5000 rows reads, at `(p, q)`, the row at `(0, q)`. -/
theorem biasRow1_apply (x : S1x128.Idx → EReal) (hc : S1x128.ShapeCasts S1x128) (hb : S1x128.Broadcasts S5000x128)
    (p : Fin 5000) (q : Fin 128) :
    broadcastTo S5000x128 (shapeCast S1x128 x hc) hb (ix2 p q) = x (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if (128 : Nat) = 1 then 0 else q.val
    rw [if_neg (by decide)]

/-- A `5000 × 1` column repeated across 128 columns reads, at `(p, k)`, the column at `(p, 0)`. -/
theorem scaleCol_apply (x : S5000x1.Idx → EReal) (hb : S5000x1.Broadcasts S5000x128)
    (p : Fin 5000) (k : Fin 128) :
    broadcastTo S5000x128 x hb (ix2 p k) = x (ix2 p (0 : Fin 1)) := by
  refine broadcastTo_apply _ hb (ix2 p k) (ix2 p (0 : Fin 1)) (fun a => ?_)
  match a with
  | ⟨0, _⟩ =>
    show p.val = if (5000 : Nat) = 1 then 0 else p.val
    rw [if_neg (by decide)]
  | ⟨1, _⟩ => exact (if_pos rfl).symm

/-- The body's stored value at entry `(p, q)` of a block. -/
theorem pay1_apply (x0 x1 : Vec Ideal S5000x128 .f32) (x2 : Vec Ideal S5000x1 .f32) (x3 x4 : Vec Ideal S128x128 .f32)
    (x5 : Vec Ideal S1x128 .f32) (p : Fin 5000) (q : Fin 128) :
    k1_pay1 (F := Ideal) x0 x1 x2 x3 x4 x5 (ix2 p q)
      = max (((∑ k : Fin 128, x0 (ix2 p k) * x3 (ix2 k q))
          + (∑ k : Fin 128, (x1 (ix2 p k) * x2 (ix2 p (0 : Fin 1))) * x4 (ix2 k q)))
        + x5 (ix2 (0 : Fin 1) q)) (Ideal.ofBits .f32 0x00000000#32) := by
  unfold k1_pay1
  rw [maximumf_apply, addf_apply, addf_apply, biasRow1_apply]
  rw [show dot_S5000x128_S128x128_S5000x128_1_0_0_1_n_n = DotDims.plain 5000 128 128 from rfl]
  dsimp only [matmul]
  rw [Cert.Lib.PlainDot.matmul_zero_apply, Cert.Lib.PlainDot.matmul_zero_apply]
  simp only [shapeCast_self, truncf_apply, mulf_apply, scaleCol_apply]
  rfl

/-! ## The region's result array -/

section Region

variable (V : (c : Dev nD) → (b : Ref sig .tc) → Buf (Elt Ideal) ((c : Thread nD τ).loc b))

/-- The block index of every window at every grid point: the four row-blocked windows are at block row `t`, the
    weights and the bias always at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What grid point `t` writes back is block `t` of the updated node features of the arrays the region was entered
    with. -/
theorem flushed1 (c : Dev nD) (t : Fin cfg1.N) :
    (dat1 V c).flushed 6 t = ((cfg1.win 6).blk t).view.read (Elt Ideal)
      (applyOf (V c main_arg0) (V c main_v21) (V c main_v30) (V c main_v5) (V c main_v7) (V c main_v9)) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S5000x1) hz2,
    View.ld_unit_zero (S := S128x128) hz2, View.ld_unit_zero (S := S1x128) hz2]
  obtain ⟨e00, e01, e10, e11, e20, e21, e30, e31, e40, e41, e50, e51, e60, e61⟩ := idx_facts1 t
  funext j
  obtain ⟨p, q, rfl⟩ : ∃ (p : Fin 5000) (q : Fin 128), j = ix2 p q := ⟨j 0, j 1, eq_ix2 j⟩
  refine (pay1_apply (iblk1 V c 0 t) (iblk1 V c 1 t) (iblk1 V c 2 t) (iblk1 V c 3 t) (iblk1 V c 4 t) (iblk1 V c 5 t) p q).trans ?_
  show _ = applyOf (V c main_arg0) (V c main_v21) (V c main_v30) (V c main_v5) (V c main_v7) (V c main_v9)
    (((cfg1.win 6).blk t).view.emb (ix2 p q))
  unfold applyOf
  have hX : ∀ k : Fin 128, iblk1 V c 0 t (ix2 p k)
      = V c main_arg0 (ix2 ((((cfg1.win 6).blk t).view.emb (ix2 p q)) 0 : Fin 100000) k) := fun k => by
    show V c main_arg0 (((cfg1.win 0).blk t).view.emb (ix2 p k)) = _
    refine congrArg (V c main_arg0) (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * k.val = k.val; omega
  have hA : ∀ k : Fin 128, iblk1 V c 1 t (ix2 p k)
      = V c main_v21 (ix2 ((((cfg1.win 6).blk t).view.emb (ix2 p q)) 0 : Fin 100000) k) := fun k => by
    show V c main_v21 (((cfg1.win 1).blk t).view.emb (ix2 p k)) = _
    refine congrArg (V c main_v21) (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 128 + 1 * k.val = k.val; omega
  have hr : iblk1 V c 2 t (ix2 p (0 : Fin 1))
      = V c main_v30 (ix2 ((((cfg1.win 6).blk t).view.emb (ix2 p q)) 0 : Fin 100000) (0 : Fin 1)) := by
    show V c main_v30 (((cfg1.win 2).blk t).view.emb (ix2 p (0 : Fin 1))) = _
    refine congrArg (V c main_v30) (funext fun a => Fin.ext ?_)
    match a with
    | ⟨0, _⟩ => show win1_2.index t (0 : Fin 2) * 5000 + 1 * p.val = win1_6.index t (0 : Fin 2) * 5000 + 1 * p.val; omega
    | ⟨1, _⟩ => show win1_2.index t (1 : Fin 2) * 1 + 1 * 0 = 0; omega
  have hWc : ∀ k : Fin 128, iblk1 V c 3 t (ix2 k q)
      = V c main_v5 (ix2 k ((((cfg1.win 6).blk t).view.emb (ix2 p q)) 1 : Fin 128)) := fun k => by
    show V c main_v5 (((cfg1.win 3).blk t).view.emb (ix2 k q)) = _
    refine congrArg (V c main_v5) (funext fun a => Fin.ext ?_)
    match a with
    | ⟨0, _⟩ => show win1_3.index t (0 : Fin 2) * 128 + 1 * k.val = k.val; omega
    | ⟨1, _⟩ => show win1_3.index t (1 : Fin 2) * 128 + 1 * q.val = win1_6.index t (1 : Fin 2) * 128 + 1 * q.val; omega
  have hWd : ∀ k : Fin 128, iblk1 V c 4 t (ix2 k q)
      = V c main_v7 (ix2 k ((((cfg1.win 6).blk t).view.emb (ix2 p q)) 1 : Fin 128)) := fun k => by
    show V c main_v7 (((cfg1.win 4).blk t).view.emb (ix2 k q)) = _
    refine congrArg (V c main_v7) (funext fun a => Fin.ext ?_)
    match a with
    | ⟨0, _⟩ => show win1_4.index t (0 : Fin 2) * 128 + 1 * k.val = k.val; omega
    | ⟨1, _⟩ => show win1_4.index t (1 : Fin 2) * 128 + 1 * q.val = win1_6.index t (1 : Fin 2) * 128 + 1 * q.val; omega
  have hb : iblk1 V c 5 t (ix2 (0 : Fin 1) q)
      = V c main_v9 (ix2 (0 : Fin 1) ((((cfg1.win 6).blk t).view.emb (ix2 p q)) 1 : Fin 128)) := by
    show V c main_v9 (((cfg1.win 5).blk t).view.emb (ix2 (0 : Fin 1) q)) = _
    refine congrArg (V c main_v9) (funext fun a => Fin.ext ?_)
    match a with
    | ⟨0, _⟩ => show win1_5.index t (0 : Fin 2) * 1 + 1 * 0 = 0; omega
    | ⟨1, _⟩ => show win1_5.index t (1 : Fin 2) * 128 + 1 * q.val = win1_6.index t (1 : Fin 2) * 128 + 1 * q.val; omega
  rw [hb, hr]
  refine congrArg (max · _) (congrArg₂ (· + ·) (congrArg₂ (· + ·) (Finset.sum_congr rfl fun k _ => ?_)
    (Finset.sum_congr rfl fun k _ => ?_)) rfl)
  · rw [hX k, hWc k]
  · rw [hA k, hWd k]

/-- An index of the result array is in point `t`'s block iff each coordinate is in the block's range on its axis. -/
theorem mem_blk1 (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v31).slice (win1_6.rect t)).set ↔ _
  rw [View.set_slice_whole, Rect.mem_set_unit]
  exact Iff.rfl

/-- Row `n` of the result lies in the block of point `n / 5000`: the row blocks tile the array. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : grid1.N = 20 := N_1
  have ht : (i 0).val / 5000 < cfg1.N := by show (i 0).val / 5000 < grid1.N; rw [hN]; omega
  obtain ⟨-, -, -, -, -, -, -, -, -, -, -, -, e60, e61⟩ := idx_facts1 ⟨(i 0).val / 5000, ht⟩
  refine ⟨⟨(i 0).val / 5000, ht⟩, flush1_6 _, ?_⟩
  rw [mem_blk1]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win1_6.index ⟨(i 0).val / 5000, ht⟩ (1 : Fin 2) * 128 ≤ (i 1).val
      ∧ (i 1).val < win1_6.index ⟨(i 0).val / 5000, ht⟩ (1 : Fin 2) * 128 + 128
    rw [e61]; omega

/-- After the region its result array holds the updated node features of the arrays the region was entered with. -/
theorem final1 (c : Dev nD) :
    (dat1 V c).arrAt 6 cfg1.N
      = applyOf (V c main_arg0) (V c main_v21) (V c main_v30) (V c main_v5) (V c main_v7) (V c main_v9) :=
  (dat1 V c).arrAt_eq_of_cover 6 _ (fun t _ => flushed1 V c t) cover1

end Region

end Cert.KernelIdeal.Val

end
-- ==== Proof.LibRegionOp.lean ====
/-
  General facts about a kernel region read as ONE host operation.

  A region's run leaves its arrays at what the write-backs make of them and every other buffer as it was. When
  the region has one output array, whose final contents are a function of the entry contents of the input
  arrays, and its input arrays end as entered, this is exactly what a single host operation computing that
  function into the output array leaves: `withArrays_eq_result`. A run of host operations interleaved with
  regions is then one fold of operations, and a buffer's contents after it are read operation by operation.

  Also: the value an operation with a LITERAL family of five or of seven operands leaves in its result, with
  each operand's contents named at its own reference (the library states this for four operands), and operations of
  five and of seven operands with a curried function, whose result is the function of the operands' contents.
-/
import Idealize.ShloMosaic.Lib.StableHlo.Run
import Idealize.ShloMosaic.Lib.Pipeline.FrameSuffix
import Idealize.ShloMosaic.Lib.Pipeline.Value

noncomputable section

namespace Cert.Lib.RegionOp

open Idealize.ShloMosaic Idealize.ShloMosaic.TcCoe

variable {nD : Nat} {τ : Topo} {sig : RefSig} {Val : EltTy → Type}

/-- The contents a region leaves — its arrays at `A`, every other buffer at `V` — are what an operation `op`
    writing only the output array leaves of `V`, when the output array ends at the operation's value and every
    other array of the region ends as entered. -/
theorem withArrays_eq_result {gr W : Nat} (win : Fin W → Pipeline.WinSpec sig gr)
    (hinj : Function.Injective (Pipeline.arrRef win)) (c : Dev nD) (V : Valuation τ sig Val)
    (A : (w : Fin W) → Buf Val ((win w).arr.view.loc (c.tc : Thread nD τ)))
    (op : HloOp τ sig Val) (wo : Fin W)
    (hw : op.writes = {Proc.devRef .tc (Pipeline.arrRef win wo)})
    (hout : A wo = op.result V (Proc.devRef .tc (Pipeline.arrRef win wo)))
    (hin : ∀ w, w ≠ wo → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = wo
    · subst hwo; exact hout
    · rw [hin w hwo, op.result_of_not_mem V (by
        rw [hw, Finset.mem_singleton]; exact fun e => hwo (hinj (Proc.devRef_injective _ e)))]
  · unfold Pipeline.withArrays
    rw [dif_neg h, op.result_of_not_mem V (by
      rw [hw, Finset.mem_singleton]; exact fun e => h ⟨wo, e.symm⟩)]

section Families

variable {x0 x1 x2 x3 x4 x5 x6 y : Ref sig .tc}

/-- The result of an operation on a literal family of five operands, each operand's contents at its own reference. -/
theorem nary5_result'
    (f : ((k : Fin 5) → ((![x0, x1, x2, x3, x4] : Fin 5 → Ref sig .tc) k).ty.Contents Val) → y.ty.Contents Val) (hxs hy)
    (F : Valuation τ sig Val) :
    (StableHlo.nary (τ := τ) ![x0, x1, x2, x3, x4] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (fun i => i.elim0)))))) := by
  rw [StableHlo.nary_result']; congr 1; funext k; fin_cases k <;> rfl

/-- The result of an operation on a literal family of seven operands, each operand's contents at its own reference. -/
theorem nary7_result'
    (f : ((k : Fin 7) → ((![x0, x1, x2, x3, x4, x5, x6] : Fin 7 → Ref sig .tc) k).ty.Contents Val) → y.ty.Contents Val) (hxs hy)
    (F : Valuation τ sig Val) :
    (StableHlo.nary (τ := τ) ![x0, x1, x2, x3, x4, x5, x6] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (fun i => i.elim0)))))))) := by
  rw [StableHlo.nary_result']; congr 1; funext k; fin_cases k <;> rfl

end Families

section Curried

/-- An operation of 5 operands into `y`, its function curried: `y` takes `G` of the operands' contents. -/
def op5 (x0 x1 x2 x3 x4 y : Ref sig .tc) (G : x0.ty.Contents Val → x1.ty.Contents Val → x2.ty.Contents Val → x3.ty.Contents Val → x4.ty.Contents Val → y.ty.Contents Val)
    (hxs : ∀ k, ((![x0, x1, x2, x3, x4] : Fin 5 → Ref sig .tc) k).space ≠ .host ∧ (((![x0, x1, x2, x3, x4] : Fin 5 → Ref sig .tc) k : Ref sig .tc) : DevRef τ sig).isScoped = false)
    (hy : y.space ≠ .host ∧ (y : DevRef τ sig).isScoped = false) : HloOp τ sig Val :=
  StableHlo.nary ![x0, x1, x2, x3, x4] y (fun u => G (u 0) (u 1) (u 2) (u 3) (u 4)) hxs hy

/-- What it leaves in its result: `G` of the operands' contents, each at its own reference. -/
theorem op5_result' (x0 x1 x2 x3 x4 y : Ref sig .tc) (G : x0.ty.Contents Val → x1.ty.Contents Val → x2.ty.Contents Val → x3.ty.Contents Val → x4.ty.Contents Val → y.ty.Contents Val) (hxs) (hy) (F : Valuation τ sig Val) :
    (op5 (τ := τ) x0 x1 x2 x3 x4 y G hxs hy).result F (no_index (Proc.devRef .tc y)) = G (F (Proc.devRef .tc x0)) (F (Proc.devRef .tc x1)) (F (Proc.devRef .tc x2)) (F (Proc.devRef .tc x3)) (F (Proc.devRef .tc x4)) := by
  unfold op5
  rw [StableHlo.nary_result']
  rfl

/-- Every other buffer it leaves alone. -/
theorem op5_result_ne' (x0 x1 x2 x3 x4 y : Ref sig .tc) (G : x0.ty.Contents Val → x1.ty.Contents Val → x2.ty.Contents Val → x3.ty.Contents Val → x4.ty.Contents Val → y.ty.Contents Val) (hxs) (hy) (F : Valuation τ sig Val)
    {r : Ref sig .tc} (h : r ≠ y) :
    (op5 (τ := τ) x0 x1 x2 x3 x4 y G hxs hy).result F (no_index (Proc.devRef .tc r)) = F (Proc.devRef .tc r) := by
  unfold op5
  exact StableHlo.nary_result_ne' _ _ _ _ _ h

/-- It writes its result buffer only. -/
theorem op5_writes (x0 x1 x2 x3 x4 y : Ref sig .tc) (G : x0.ty.Contents Val → x1.ty.Contents Val → x2.ty.Contents Val → x3.ty.Contents Val → x4.ty.Contents Val → y.ty.Contents Val) (hxs) (hy) :
    (op5 (τ := τ) x0 x1 x2 x3 x4 y G hxs hy).writes = {Proc.devRef .tc y} := rfl

/-- An operation of 7 operands into `y`, its function curried: `y` takes `G` of the operands' contents. -/
def op7 (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val)
    (hxs : ∀ k, ((![x0, x1, x2, x3, x4, x5, x6] : Fin 7 → Ref sig .tc) k).space ≠ .host ∧ (((![x0, x1, x2, x3, x4, x5, x6] : Fin 7 → Ref sig .tc) k : Ref sig .tc) : DevRef τ sig).isScoped = false)
    (hy : y.space ≠ .host ∧ (y : DevRef τ sig).isScoped = false) : HloOp τ sig Val :=
  StableHlo.nary ![x0, x1, x2, x3, x4, x5, x6] y (fun u => G (u 0) (u 1) (u 2) (u 3) (u 4) (u 5) (u 6)) hxs hy

/-- What it leaves in its result: `G` of the operands' contents, each at its own reference. -/
theorem op7_result' (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val) (hxs) (hy) (F : Valuation τ sig Val) :
    (op7 (τ := τ) x0 x1 x2 x3 x4 x5 x6 y G hxs hy).result F (no_index (Proc.devRef .tc y)) = G (F (Proc.devRef .tc x0)) (F (Proc.devRef .tc x1)) (F (Proc.devRef .tc x2)) (F (Proc.devRef .tc x3)) (F (Proc.devRef .tc x4)) (F (Proc.devRef .tc x5)) (F (Proc.devRef .tc x6)) := by
  unfold op7
  rw [StableHlo.nary_result']
  rfl

/-- Every other buffer it leaves alone. -/
theorem op7_result_ne' (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val) (hxs) (hy) (F : Valuation τ sig Val)
    {r : Ref sig .tc} (h : r ≠ y) :
    (op7 (τ := τ) x0 x1 x2 x3 x4 x5 x6 y G hxs hy).result F (no_index (Proc.devRef .tc r)) = F (Proc.devRef .tc r) := by
  unfold op7
  exact StableHlo.nary_result_ne' _ _ _ _ _ h

/-- It writes its result buffer only. -/
theorem op7_writes (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val) (hxs) (hy) :
    (op7 (τ := τ) x0 x1 x2 x3 x4 x5 x6 y G hxs hy).writes = {Proc.devRef .tc y} := rfl

end Curried

end Cert.Lib.RegionOp

end
-- ==== Proof.LibRegionOp6.lean ====
/-
  An operation of six operands with a curried function.

  The result buffer takes a function `G` of the six operands' contents, each read at its own reference, and every
  other buffer is left alone: the six-operand companion of the five- and seven-operand forms.
-/
import Idealize.ShloMosaic.Lib.StableHlo.Run

noncomputable section

namespace Cert.Lib.RegionOp

open Idealize.ShloMosaic Idealize.ShloMosaic.TcCoe

variable {τ : Topo} {sig : RefSig} {Val : EltTy → Type}

/-- An operation of 6 operands into `y`, its function curried: `y` takes `G` of the operands' contents. -/
def op6 (x0 x1 x2 x3 x4 x5 y : Ref sig .tc) (G : x0.ty.Contents Val → x1.ty.Contents Val → x2.ty.Contents Val → x3.ty.Contents Val → x4.ty.Contents Val → x5.ty.Contents Val → y.ty.Contents Val)
    (hxs : ∀ k, ((![x0, x1, x2, x3, x4, x5] : Fin 6 → Ref sig .tc) k).space ≠ .host ∧ (((![x0, x1, x2, x3, x4, x5] : Fin 6 → Ref sig .tc) k : Ref sig .tc) : DevRef τ sig).isScoped = false)
    (hy : y.space ≠ .host ∧ (y : DevRef τ sig).isScoped = false) : HloOp τ sig Val :=
  StableHlo.nary ![x0, x1, x2, x3, x4, x5] y (fun u => G (u 0) (u 1) (u 2) (u 3) (u 4) (u 5)) hxs hy

/-- What it leaves in its result: `G` of the operands' contents, each at its own reference. -/
theorem op6_result' (x0 x1 x2 x3 x4 x5 y : Ref sig .tc) (G : x0.ty.Contents Val → x1.ty.Contents Val → x2.ty.Contents Val → x3.ty.Contents Val → x4.ty.Contents Val → x5.ty.Contents Val → y.ty.Contents Val) (hxs) (hy) (F : Valuation τ sig Val) :
    (op6 (τ := τ) x0 x1 x2 x3 x4 x5 y G hxs hy).result F (no_index (Proc.devRef .tc y)) = G (F (Proc.devRef .tc x0)) (F (Proc.devRef .tc x1)) (F (Proc.devRef .tc x2)) (F (Proc.devRef .tc x3)) (F (Proc.devRef .tc x4)) (F (Proc.devRef .tc x5)) := by
  unfold op6
  rw [StableHlo.nary_result']
  rfl

/-- Every other buffer it leaves alone. -/
theorem op6_result_ne' (x0 x1 x2 x3 x4 x5 y : Ref sig .tc) (G : x0.ty.Contents Val → x1.ty.Contents Val → x2.ty.Contents Val → x3.ty.Contents Val → x4.ty.Contents Val → x5.ty.Contents Val → y.ty.Contents Val) (hxs) (hy) (F : Valuation τ sig Val)
    {r : Ref sig .tc} (h : r ≠ y) :
    (op6 (τ := τ) x0 x1 x2 x3 x4 x5 y G hxs hy).result F (no_index (Proc.devRef .tc r)) = F (Proc.devRef .tc r) := by
  unfold op6
  exact StableHlo.nary_result_ne' _ _ _ _ _ h

/-- It writes its result buffer only. -/
theorem op6_writes (x0 x1 x2 x3 x4 x5 y : Ref sig .tc) (G : x0.ty.Contents Val → x1.ty.Contents Val → x2.ty.Contents Val → x3.ty.Contents Val → x4.ty.Contents Val → x5.ty.Contents Val → y.ty.Contents Val) (hxs) (hy) :
    (op6 (τ := τ) x0 x1 x2 x3 x4 x5 y G hxs hy).writes = {Proc.devRef .tc y} := rfl

end Cert.Lib.RegionOp

end
-- ==== Proof.LibAfter.lean ====
/-
  General facts for reading the fold of buffer contents through a line of host operations.

  * Over a concatenation: running two lines one after the other is running the first, then the second from what the first
    left (`after_append`).
  * A concatenation of TWO arrays with the arrays as plain arguments (`concat2`, `concatenate_pair`): in `concatenate` the
    operands sit in a list of (shape, array) pairs on which the shape fact depends, so a rewriting pass cannot go inside the
    list; stated over the two arrays it can.
  * `read_fold`: one rewriting pass that reads such a fold back at a buffer — each operation's result at its own result
    buffer is its function of the operands' contents, at any other buffer what was there — going inside two-operand
    concatenations as well.
-/
import Idealize.ShloMosaic.Lib.StableHlo.Run

noncomputable section

namespace Cert.Lib.After

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The concatenation of two arrays along an axis, the arrays as plain arguments. -/
def concat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A two-operand `concatenate` is that. -/
theorem concatenate_pair {α : Type} (t : Shape) (a : Fin t.rank) (s₁ s₂ : Shape) (x : s₁.Idx → α) (y : s₂.Idx → α)
    (h : Shape.Concatenates (([⟨s₁, x⟩, ⟨s₂, y⟩] : List ((s : Shape) × (s.Idx → α))).map (·.1)) t a) :
    concatenate t a [⟨s₁, x⟩, ⟨s₂, y⟩] h = concat2 t a s₁ s₂ x y (by simpa using h) := rfl

end Cert.Lib.After

/-- Reads a fold of host operations back at a buffer in one rewriting pass (the library's pass, and inside two-operand
    concatenations). -/
macro "read_fold" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne',
      Cert.Lib.After.concatenate_pair]))

end
-- ==== Proof.KernelRun.lean ====
/-
  The kernel program's run, with its two results read back as functions of the arguments.

  The program is three stretches of host operations with the two kernel regions between them. A region leaves its
  input arrays as it found them and its one result array at a function of the arrays it was entered with (the edge
  messages; the updated node features), so on the buffer contents it acts exactly as ONE more host operation
  computing that function. The contents at the end are then one fold of operations from the contents at launch, and
  each result buffer is read back through the fold as a composed term of the eight arguments:

    * the normalised row indices `rowIdx` (a negative index is moved up by the number of nodes), the two halves of a
      `128 × 256` weight matrix transposed (`wT0`, `wT1`), a bias as a `1 × 128` row (`biasRow`);
    * `msgK`: the edge messages of the gathered source rows and the edge features;
    * `aggK`, `degK`: the messages, and the constant one, summed into the destination rows;
    * `invK`: one over the larger of the degree and one, as a column;
    * `newhK`: the updated node features; `outH`, `outE`: the two results, a unit middle axis added.
-/
import proofs.«130156_j85152021611247_2_alg».proof.Proof.ApplyRegion
import proofs.«130156_j85152021611247_2_alg».proof.Proof.LibRegionOp
import proofs.«130156_j85152021611247_2_alg».proof.Proof.LibRegionOp6
import proofs.«130156_j85152021611247_2_alg».proof.Proof.LibAfter
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

/-- Float and integer array contents at the ideal values. -/
abbrev CF (s : Shape) : Type := (⟨s, .f32⟩ : BufTy).Contents (Elt Ideal)
abbrev CI (s : Shape) : Type := (⟨s, .i32⟩ : BufTy).Contents (Elt Ideal)

/-! ## The composed terms -/

/-- Row indices normalised as array indexing does (a negative index has the number of nodes added), as a column. -/
def rowIdx (x : CI S800000) : CI S800000x1 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 100000#32))) x)

/-- Row indices as a column, as given. -/
def asCol (x : CI S800000) : CI S800000x1 := broadcastInDim S800000x1 ![0] bcast_S800000_S800000x1_0 x

/-- The left half of a `128 × 256` matrix, transposed. -/
def wT0 (w : CF S128x256) : CF S128x128 :=
  transpose S128x128 [1, 0] (extractStridedSlice S128x128 ![0, 0] w slices_S128x256_S128x128_0_0) transposes_S128x128_S128x128_1_0

/-- The right half of a `128 × 256` matrix, transposed. -/
def wT1 (w : CF S128x256) : CF S128x128 :=
  transpose S128x128 [1, 0] (extractStridedSlice S128x128 ![0, 128] w slices_S128x256_S128x128_0_128) transposes_S128x128_S128x128_1_0

/-- A bias vector as a `1 × 128` row. -/
def biasRow (b : CF S128) : CF S1x128 := shapeCast S1x128 b shapeCasts_S128_S1x128

/-- The gathered source features (the node table's format change is the identity). -/
def srcRows (x0 : CF S100000x128) (x2 : CI S800000) : (⟨S800000x128, .bf16⟩ : BufTy).Contents (Elt Ideal) :=
  Host.gather gather_S100000x128_S800000x1_S800000x128_1_0_n_n_0_1_1128 (truncf (F := Ideal) .bf16 x0 bitsLt_bf16_f32) (rowIdx x2)

/-- The edge messages. -/
def msgK (x0 : CF S100000x128) (x1 : CF S800000x128) (x2 : CI S800000) (x4 : CF S128x256) (x5 : CF S128) : CF S800000x128 :=
  msgOf (srcRows x0 x2) x1 (wT0 x4) (wT1 x4) (biasRow x5)

/-- The messages summed into their destination rows. -/
def aggK (x0 : CF S100000x128) (x1 : CF S800000x128) (x2 x3 : CI S800000) (x4 : CF S128x256) (x5 : CF S128) : CF S100000x128 :=
  Host.scatterAdd (F := Ideal) scatter_S100000x128_S800000x1_S800000x128_1_0_0_1
    (broadcastInDim S100000x128 ![] bcast_S_S100000x128 (constant (F := Ideal) S_ .f32 0x00000000#32)) (asCol x3) (msgK x0 x1 x2 x4 x5)

/-- The number of messages per destination row, as a float sum of ones. -/
def degK (x3 : CI S800000) : CF S100000 :=
  Host.scatterAdd (F := Ideal) scatter_S100000_S800000x1_S800000_n_0_0_1
    (broadcastInDim S100000 ![] bcast_S_S100000 (constant (F := Ideal) S_ .f32 0x00000000#32)) (asCol x3)
    (broadcastInDim S800000 ![] bcast_S_S800000 (constant (F := Ideal) S_ .f32 0x3F800000#32))

/-- One over the larger of the degree and one, as a column. -/
def invK (x3 : CI S800000) : CF S100000x1 :=
  shapeCast S100000x1
    (Host.divf (F := Ideal) (broadcastInDim S100000 ![] bcast_S_S100000 (constant (F := Ideal) S_ .f32 0x3F800000#32))
      (maximumf (F := Ideal) (degK x3) (broadcastInDim S100000 ![] bcast_S_S100000 (constant (F := Ideal) S_ .f32 0x3F800000#32))))
    shapeCasts_S100000_S100000x1

/-- The updated node features. -/
def newhK (x0 : CF S100000x128) (x1 : CF S800000x128) (x2 x3 : CI S800000) (x4 : CF S128x256) (x5 : CF S128)
    (x6 : CF S128x256) (x7 : CF S128) : CF S100000x128 :=
  applyOf x0 (aggK x0 x1 x2 x3 x4 x5) (invK x3) (wT0 x6) (wT1 x6) (biasRow x7)

/-- The first result: the updated node features with a unit middle axis. -/
def outH (x0 : CF S100000x128) (x1 : CF S800000x128) (x2 x3 : CI S800000) (x4 : CF S128x256) (x5 : CF S128)
    (x6 : CF S128x256) (x7 : CF S128) : CF S100000x1x128 :=
  broadcastInDim S100000x1x128 ![0, 2] bcast_S100000x128_S100000x1x128_0_2 (newhK x0 x1 x2 x3 x4 x5 x6 x7)

/-- The second result: half the sum of the two endpoint rows of every edge, with a unit middle axis. -/
def outE (x0 : CF S100000x128) (x1 : CF S800000x128) (x2 x3 : CI S800000) (x4 : CF S128x256) (x5 : CF S128)
    (x6 : CF S128x256) (x7 : CF S128) : CF S800000x1x128 :=
  broadcastInDim S800000x1x128 ![0, 2] bcast_S800000x128_S800000x1x128_0_2
    (mulf (F := Ideal)
      (addf (F := Ideal)
        (Host.gather gather_S100000x128_S800000x1_S800000x128_1_0_n_n_0_1_1128 (newhK x0 x1 x2 x3 x4 x5 x6 x7) (rowIdx x2))
        (Host.gather gather_S100000x128_S800000x1_S800000x128_1_0_n_n_0_1_1128 (newhK x0 x1 x2 x3 x4 x5 x6 x7) (rowIdx x3)))
      (broadcastInDim S800000x128 ![] bcast_S_S800000x128 (constant (F := Ideal) S_ .f32 0x3F000000#32)))

/-! ## The regions as operations -/

/-- The first region as an operation: the message array takes `msgOf` of the region's five input arrays. -/
def op0 : HloOp τ sig (Elt Ideal) :=
  Cert.Lib.RegionOp.op5 main_v17 main_arg1 main_v1 main_v3 main_v8 main_v18 msgOf (by decide) (by decide)

/-- The second region as an operation: the node array takes `applyOf` of the region's six input arrays. -/
def op1 : HloOp τ sig (Elt Ideal) :=
  Cert.Lib.RegionOp.op6 main_arg0 main_v21 main_v30 main_v5 main_v7 main_v9 main_v31 applyOf (by decide) (by decide)

variable (m : (ℓ : Loc nD τ sig) → Buf (Elt Ideal) ℓ) (ρ : Dev nD → PrngReg)

/-- The contents the first region leaves are what its operation leaves of the contents it was entered with. -/
theorem W2_eq (c : Dev nD) : W2 m ρ c = op0.result (W1 m ρ c) := by
  unfold W2
  refine Cert.Lib.RegionOp.withArrays_eq_result spec0 launch0.win.arr_inj c (W1 m ρ c) _ op0 5
    (Cert.Lib.RegionOp.op5_writes ..) ?_ ?_
  · exact (final0 (V1 m ρ) c).trans (Cert.Lib.RegionOp.op5_result' main_v17 main_arg1 main_v1 main_v3 main_v8 main_v18 msgOf _ _ (W1 m ρ c)).symm
  · intro w hw
    match w, hw with
    | 0, _ => exact ((dat0 (V1 m ρ) c).arrAt_in 0 rfl _).trans (A_eq0 (V1 m ρ) c 0)
    | 1, _ => exact ((dat0 (V1 m ρ) c).arrAt_in 1 rfl _).trans (A_eq0 (V1 m ρ) c 1)
    | 2, _ => exact ((dat0 (V1 m ρ) c).arrAt_in 2 rfl _).trans (A_eq0 (V1 m ρ) c 2)
    | 3, _ => exact ((dat0 (V1 m ρ) c).arrAt_in 3 rfl _).trans (A_eq0 (V1 m ρ) c 3)
    | 4, _ => exact ((dat0 (V1 m ρ) c).arrAt_in 4 rfl _).trans (A_eq0 (V1 m ρ) c 4)
    | 5, h => exact absurd rfl h

/-- The contents the second region leaves are what its operation leaves of the contents it was entered with. -/
theorem W4_eq (c : Dev nD) : W4 m ρ c = op1.result (W3 m ρ c) := by
  unfold W4
  refine Cert.Lib.RegionOp.withArrays_eq_result spec1 launch1.win.arr_inj c (W3 m ρ c) _ op1 6
    (Cert.Lib.RegionOp.op6_writes ..) ?_ ?_
  · exact (final1 (V3 m ρ) c).trans (Cert.Lib.RegionOp.op6_result' main_arg0 main_v21 main_v30 main_v5 main_v7 main_v9 main_v31 applyOf _ _ (W3 m ρ c)).symm
  · intro w hw
    match w, hw with
    | 0, _ => exact ((dat1 (V3 m ρ) c).arrAt_in 0 rfl _).trans (A_eq1 (V3 m ρ) c 0)
    | 1, _ => exact ((dat1 (V3 m ρ) c).arrAt_in 1 rfl _).trans (A_eq1 (V3 m ρ) c 1)
    | 2, _ => exact ((dat1 (V3 m ρ) c).arrAt_in 2 rfl _).trans (A_eq1 (V3 m ρ) c 2)
    | 3, _ => exact ((dat1 (V3 m ρ) c).arrAt_in 3 rfl _).trans (A_eq1 (V3 m ρ) c 3)
    | 4, _ => exact ((dat1 (V3 m ρ) c).arrAt_in 4 rfl _).trans (A_eq1 (V3 m ρ) c 4)
    | 5, _ => exact ((dat1 (V3 m ρ) c).arrAt_in 5 rfl _).trans (A_eq1 (V3 m ρ) c 5)
    | 6, h => exact absurd rfl h

/-- The whole program as one line of operations: the host stretches with each region's operation in its place. -/
def kops : List (HloOp τ sig (Elt Ideal)) := hostOps0 ++ op0 :: (hostOps1 ++ op1 :: hostOps2)

/-- The contents at the end are the fold of that line from the contents at launch. -/
theorem kops_after (V : Valuation τ sig (Elt Ideal)) :
    after kops V = after hostOps2 (op1.result (after hostOps1 (op0.result (after hostOps0 V)))) := by
  unfold kops
  rw [Cert.Lib.After.after_append hostOps0]
  show after (hostOps1 ++ op1 :: hostOps2) (op0.result (after hostOps0 V)) = _
  rw [Cert.Lib.After.after_append hostOps1]
  rfl

theorem W5_eq (c : Dev nD) : W5 m ρ c = after kops (W0 m ρ c) := by
  rw [kops_after]
  show after hostOps2 (W4 m ρ c) = _
  rw [W4_eq]
  show after hostOps2 (op1.result (after hostOps1 (W2 m ρ c))) = _
  rw [W2_eq]

/-! ## The two results read back through the fold -/

/-- Reads the fold of the program's operations back at a buffer: each host operation's and each region operation's
    result at its own result buffer is its function of the operands' contents, at any other buffer what was there. -/
macro "read_kernel_fold" : tactic =>
  `(tactic| (simp (disch := decide) only [op0, op1, Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.RegionOp.op5_result', Cert.Lib.RegionOp.op6_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Cert.Lib.RegionOp.op5_result_ne', Cert.Lib.RegionOp.op6_result_ne']))

set_option maxHeartbeats 8000000 in
/-- The first result buffer at the end of the run. -/
theorem W5_v49 (c : Dev nD) :
    W5 m ρ c (Proc.devRef .tc main_v49)
      = outH (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [W5_eq, kops_after]
  read_kernel_fold
  rfl

set_option maxHeartbeats 8000000 in
/-- The second result buffer at the end of the run. -/
theorem W5_v50 (c : Dev nD) :
    W5 m ρ c (Proc.devRef .tc main_v50)
      = outE (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [W5_eq, kops_after]
  read_kernel_fold
  rfl

end Cert.KernelIdeal.Val

end
-- ==== Proof.KernelValueRun.lean ====
/-
  The kernel program's run with its results: every weakly fair execution terminates without a fault, the two result
  buffers end at `outH` and `outE` of the arguments, and the arguments end as launched.

  The run is the launch of the program's five segments — host stretch, region, host stretch, region, host stretch —
  from the launch memory; at the end every unscoped buffer holds the last boundary's contents, which are read against
  the final state. The two result buffers are among those buffers, so they hold what the fold of the program's
  operations leaves in them, and the arguments hold their launch contents.
-/
import proofs.«130156_j85152021611247_2_alg».proof.Proof.KernelRun

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run, with each result buffer at the last boundary's contents and the arguments as launched. -/
theorem run_boundary : θ_run defs (onTc (τ := τ) (main (F := Ideal))) ⟨m, fun _ => 0, ρ⟩ (fun r => ∀ c : Dev nD,
      r.2.mem ((c.tc : Thread nD τ).loc main_v49) = W5 m ρ c (Proc.devRef .tc main_v49)
      ∧ r.2.mem ((c.tc : Thread nD τ).loc main_v50) = W5 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v49 (by decide)),
       h c _ (mem_uc main_v50 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

/-- The run, with the two results as functions of the arguments. -/
theorem run : θ_run defs (onTc (τ := τ) (main (F := Ideal))) ⟨m, fun _ => 0, ρ⟩ (fun r => ∀ c : Dev nD,
      r.2.mem ((c.tc : Thread nD τ).loc main_v49)
        = outH (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_v50)
        = outE (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W5_v49 m ρ c), (h c).2.1.trans (W5_v50 m ρ c), (h c).2.2⟩)
    (run_boundary m ρ)

end Cert.KernelIdeal.Val

end
-- ==== Proof.LibRowScatter.lean ====
/-
  A row gather and a row scatter-add, read at an index.

  For a table `x` of `N` rows and `C` columns and a column `idx` of `M` integer words:

  * the gather of rows takes result row `e` from the operand row `idx[e]` read as a signed integer and clamped into
    `[0, N − 1]`: entry `(e, c)` of the result is `x (gatherRow idx e, c)`;
  * the scatter-add of rows adds update row `e` into the operand row `idx[e]` read as a signed integer and not
    clamped (an update whose row is outside `[0, N − 1]` is dropped): entry `(n, c)` of the result is
    `x (n, c) + ∑ e ∈ landsOn idx N n, upd (e, c)`, the sum over the update rows whose index is `n`.

  Neither the row `gatherRow idx e` nor the set `landsOn idx N n` depends on the number of columns or on the entries.
-/
import Idealize.ShloMosaic.Lib.ValueIdx
import Idealize.ShloMosaic.PureOps.Ideal.Laws
import Idealize.ShloMosaic.Lib.Pipeline.Value

noncomputable section

open scoped BigOperators

namespace Cert.Lib.RowScatter

open Idealize.ShloMosaic Idealize.ShloMosaic.ValueIdx

/-! ## The gather of rows -/

section Gather
variable {α : Type}

/-- The dimension numbers of a gather of whole rows: operand `[N, C]`, start indices `[M, 1]`, result `[M, C]`;
    the result's axis 1 is the offset axis, the operand's axis 0 is collapsed and is the one the start index names,
    the index vector lies along axis 1 of the start indices, and a slice is one row, `1 × C`. Their conditions `wf`
    are decided on literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the word `idx (e, 0)` as a signed integer, negative values taken to
    `0`, then cut to at most `N − 1`. It depends on neither the number of columns nor the entries. -/
def gatherRow (N : Nat) (hN : 0 < N) {M w : Nat} (idx : IVec ⟨2, ![M, 1]⟩ w) (e : Fin M) : Fin N :=
  ⟨min (idx (ix2 e (0 : Fin 1))).toInt.toNat (N - 1), by omega⟩

/-- On the row axis the operand index of result entry `(e, c)` is the clamped start index: no batching coordinate,
    and no offset coordinate on a collapsed axis. -/
theorem gather_operandIdx_zero {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 0).val = min (idx (ix2 e (0 : Fin 1))).toInt.toNat (N - 1) := by
  show (rowGatherDims N M C wf).start (ix2 e c) idx 0 + (rowGatherDims N M C wf).batchCoord (ix2 e c) 0
    + (rowGatherDims N M C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N M C wf).startIndexMap from List.mem_singleton.mpr rfl)]
  have hsi : (rowGatherDims N M C wf).siIdx (ix2 e c) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index of result entry `(e, c)` is `c`: the start is `0` on an axis the start
    index does not name, and the offset coordinate is the result's column. -/
theorem gather_operandIdx_one {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 1).val = c.val := by
  show (rowGatherDims N M C wf).start (ix2 e c) idx 1 + (rowGatherDims N M C wf).batchCoord (ix2 e c) 1
    + (rowGatherDims N M C wf).offCoord (ix2 e c) 1 = _
  rw [GatherDims.batchCoord_eq_zero _ _ _ List.not_mem_nil]
  have hs : (rowGatherDims N M C wf).start (ix2 e c) idx 1 = 0 := by
    unfold GatherDims.start
    rw [dif_neg (fun h => absurd (List.mem_singleton.mp h) (show ¬ ((1 : Fin 2) = 0) by decide))]
  rw [hs]
  simp only [Nat.add_zero, Nat.zero_add]
  unfold GatherDims.offCoord
  rw [dif_pos ((GatherDims.mem_sKept _ _).mpr
    ⟨fun h => absurd (List.mem_singleton.mp h) (show ¬ ((1 : Fin 2) = 0) by decide), List.not_mem_nil⟩)]
  rfl

/-- THE GATHER OF ROWS READ AT `(e, c)`: the operand at row `gatherRow N hN idx e` — the start index `idx (e, 0)` read
    signed and clamped into `[0, N − 1]` — and column `c`. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c) = x (ix2 (gatherRow N hN idx e) c) := by
  unfold Host.gather
  congr 1
  funext a
  match a with
  | ⟨0, _⟩ => exact Fin.ext (gather_operandIdx_zero wf idx e c)
  | ⟨1, _⟩ => exact Fin.ext (gather_operandIdx_one wf idx e c)

end Gather

/-! ## The scatter-add of rows -/

section Scatter

/-- The dimension numbers of a scatter of whole rows: operand `[N, C]`, scatter indices `[M, 1]`, updates `[M, C]`;
    the updates' axis 1 is the window axis, the operand's axis 0 is inserted and is the one the scatter index names,
    and the index vector lies along axis 1 of the scatter indices. Their conditions `wf` are decided on literal
    shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The update rows that land on operand row `n`: the rows `e` whose index word `idx (e, 0)`, read as a signed
    integer and not clamped, is `n`. It depends on neither the number of columns nor the entries. -/
def landsOn {M w : Nat} (idx : IVec ⟨2, ![M, 1]⟩ w) (N : Nat) (n : Fin N) : Finset (Fin M) :=
  Finset.univ.filter (fun e => (idx (ix2 e (0 : Fin 1))).toInt = (n.val : Int))

/-- An axis is among the kept axes exactly when it is not among the removed ones. -/
theorem mem_kept {s : Shape} (axes : List (Fin s.rank)) (a : Fin s.rank) : a ∈ s.kept axes ↔ a ∉ axes := by
  simp [Shape.kept, List.mem_filter, List.mem_finRange]

/-- An update index `j` lands at the operand index `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have h2 : (d.start j idx a + (d.window j a : Int)).toNat = (i a).val := congrArg Fin.val (congrFun h' a)
      have := hb a
      omega
    · cases h
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    apply Fin.ext
    show (d.start j idx a + (d.window j a : Int)).toNat = (i a).val
    rw [h a]
    exact Int.toNat_natCast _

/-- On the row axis the start of update entry `(e, c)` is the index word `idx (e, 0)` read as a signed integer. -/
theorem scatter_start_zero {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e c)
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the start is `0`. -/
theorem scatter_start_one {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 1 = 0 := by
  unfold ScatterDims.start
  rw [dif_neg (fun h => absurd (List.mem_singleton.mp h) (show ¬ ((1 : Fin 2) = 0) by decide))]

/-- On the row axis, an inserted one, the window coordinate is `0`. -/
theorem scatter_window_zero {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 0 = 0 := by
  unfold ScatterDims.window
  rw [dif_neg (fun h => (mem_kept _ _).mp h (List.mem_singleton.mpr rfl))]

/-- On the column axis the window coordinate of update entry `(e, c)` is `c`. -/
theorem scatter_window_one {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 1 = c.val := by
  unfold ScatterDims.window
  rw [dif_pos ((mem_kept _ _).mpr
    (fun h => absurd (List.mem_singleton.mp h) (show ¬ ((1 : Fin 2) = 0) by decide)))]
  rfl

/-- Update entry `(e, c')` lands at operand entry `(n, c)` exactly when the columns agree and the signed index word
    of row `e` is `n`. -/
theorem resultIdx?_rows {N M C w : Nat} (wf : ScatterDims.WF ⟨2, ![N, C]⟩ ⟨2, ![M, 1]⟩ ⟨2, ![M, C]⟩ [1] [0] [0] 1)
    (idx : IVec ⟨2, ![M, 1]⟩ w) (e : Fin M) (c' c : Fin C) (n : Fin N) :
    (rowScatterDims N M C wf).resultIdx? (ix2 e c') idx = some (ix2 n c)
      ↔ c' = c ∧ (idx (ix2 e (0 : Fin 1))).toInt = (n.val : Int) := by
  rw [resultIdx?_eq_some_iff]
  rw [Fin.forall_fin_two]
  rw [scatter_start_zero, scatter_window_zero, scatter_start_one, scatter_window_one]
  show ((idx (ix2 e (0 : Fin 1))).toInt + ((0 : Nat) : Int) = (n.val : Int)
    ∧ (0 : Int) + (c'.val : Int) = (c.val : Int)) ↔ _
  constructor
  · rintro ⟨h0, h1⟩
    exact ⟨Fin.ext (by omega), by omega⟩
  · rintro ⟨rfl, h⟩
    exact ⟨by omega, by omega⟩

/-- THE SCATTER-ADD OF ROWS READ AT `(n, c)`: the operand's entry plus the sum, over the update rows `e` whose signed
    index word is `n`, of the update's entry `(e, c)`. -/
theorem scatterAdd_rows_apply {N M C w : Nat}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (n : Fin N) (c : Fin C) :
    Host.scatterAdd (F := Ideal) (rowScatterDims N M C wf) x idx upd (ix2 n c)
      = x (ix2 n c) + ∑ e ∈ landsOn idx N n, upd (ix2 e c) := by
  unfold Host.scatterAdd
  rw [Ideal.hostScatterAdd_def]
  unfold Ideal.hostScatterAdd
  congr 1
  rw [Finset.sum_filter, sum_idx2]
  unfold landsOn
  rw [Finset.sum_filter]
  refine Finset.sum_congr rfl (fun e _ => ?_)
  simp only [resultIdx?_rows]
  by_cases hP : (idx (ix2 e (0 : Fin 1))).toInt = (n.val : Int)
  · simp [hP]
  · simp [hP]

end Scatter

end Cert.Lib.RowScatter

end
-- ==== Proof.Spec.lean ====
/-
  The layer's result, index by index, as plain formulas over the arguments.

  With `x0` the node features (`100000 × 128`), `x1` the edge features (`800000 × 128`), `x4` and `x6` the two
  `128 × 256` weight matrices and `x5`, `x7` the two biases:

    * the message of edge `e`, output column `o`, whose source row is `row e`:
        (∑ k<128, x0 (row e, k) · x4 (o, k)) + (∑ k<128, x1 (e, k) · x4 (o, 128 + k)) + x5 o;
    * the aggregate at node `n`: zero plus the sum of the messages of the edges `land n` that arrive at `n`;
    * the updated feature of node `n`, with `d n` the larger of `n`'s degree and one:
        max ((∑ k<128, x0 (n, k) · x6 (o, k)) + (∑ k<128, (agg (n, k) · (1 / d n)) · x6 (o, 128 + k)) + x7 o) 0;
    * the updated feature of edge `e` with endpoints `rs e`, `rd e`: (newh (rs e) + newh (rd e)) · ½.

  The float words for zero, one and one half are kept as words: they are the same on both sides.
-/
import Idealize.ShloMosaic.Lib.ValueIdx
import Idealize.ShloMosaic.PureOps.Ideal
import Idealize.ShloMosaic.PureOps.Ideal.Laws

noncomputable section

open scoped BigOperators

namespace Cert.Spec

open Idealize.ShloMosaic Idealize.ShloMosaic.ValueIdx

abbrev T1 (a : Nat) : Type := (⟨1, ![a]⟩ : Shape).Idx → EReal
abbrev T2 (a b : Nat) : Type := (⟨2, ![a, b]⟩ : Shape).Idx → EReal

/-- Column `k` of the left half of a `256`-wide row. -/
abbrev lo (k : Fin 128) : Fin 256 := ⟨k.val, by have := k.isLt; omega⟩
/-- Column `k` of the right half of a `256`-wide row. -/
abbrev hi (k : Fin 128) : Fin 256 := ⟨128 + k.val, by have := k.isLt; omega⟩

theorem nodes_pos : 0 < 100000 := by decide

/-- The message of edge `e` at output column `o`. -/
def msgF (x0 : T2 100000 128) (x1 : T2 800000 128) (row : Fin 800000 → Fin 100000) (x4 : T2 128 256) (x5 : T1 128)
    (e : Fin 800000) (o : Fin 128) : EReal :=
  ((∑ k : Fin 128, x0 (ix2 (row e) k) * x4 (ix2 o (lo k))) + (∑ k : Fin 128, x1 (ix2 e k) * x4 (ix2 o (hi k))))
    + x5 (ix1 o)

/-- The messages summed into node `n`. -/
def aggF (msg : Fin 800000 → Fin 128 → EReal) (land : Fin 100000 → Finset (Fin 800000)) (n : Fin 100000) (o : Fin 128) :
    EReal :=
  Ideal.ofBits .f32 0x00000000#32 + ∑ e ∈ land n, msg e o

/-- The updated feature of node `n` at output column `o`. -/
def newhF (x0 : T2 100000 128) (agg : Fin 100000 → Fin 128 → EReal) (d : Fin 100000 → EReal) (x6 : T2 128 256)
    (x7 : T1 128) (n : Fin 100000) (o : Fin 128) : EReal :=
  max (((∑ k : Fin 128, x0 (ix2 n k) * x6 (ix2 o (lo k)))
      + (∑ k : Fin 128, (agg n k * Ideal.div (Ideal.ofBits .f32 0x3F800000#32) (d n)) * x6 (ix2 o (hi k))))
    + x7 (ix1 o)) (Ideal.ofBits .f32 0x00000000#32)

/-- The updated feature of edge `e` at output column `o`. -/
def neweF (newh : Fin 100000 → Fin 128 → EReal) (rs rd : Fin 800000 → Fin 100000) (e : Fin 800000) (o : Fin 128) : EReal :=
  (newh (rs e) o + newh (rd e) o) * Ideal.ofBits .f32 0x3F000000#32

end Cert.Spec

end
-- ==== Proof.KernelStages.lean ====
/-
  The kernel program's two results, index by index, as the plain formulas.

  Read at an index, the composed terms of the kernel program are the layer's formulas: a gather of rows reads the
  table at the clamped index row (the format change of the table is the identity); a half of a weight matrix,
  transposed, at `(k, o)` is the matrix at `(o, k)` or `(o, 128 + k)`; a bias as a row reads the bias; a scatter-add of
  rows adds, into row `n`, the update rows whose index is `n`; the column of scales at row `n` is one over the larger of
  the degree and one; and a result with a unit middle axis reads the array without it.
-/
import proofs.«130156_j85152021611247_2_alg».proof.Proof.KernelRun
import proofs.«130156_j85152021611247_2_alg».proof.Proof.LibRowScatter
import proofs.«130156_j85152021611247_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Facts₀ Idealize.ShloMosaic Idealize.ShloMosaic.ValueIdx Cert.Spec Cert.Lib.RowScatter

/-! ## The gather and the scatter-add of rows, at this program's shapes -/

/-- A gather of rows of a `100000 × 128` table reads, at `(e, o)`, the table at the clamped index row. -/
theorem gather2_apply {α : Type} (t : S100000x128.Idx → α) (idx : CI S800000x1) (e : Fin 800000) (o : Fin 128) :
    Host.gather gather_S100000x128_S800000x1_S800000x128_1_0_n_n_0_1_1128 t idx (ix2 e o)
      = t (ix2 (gatherRow 100000 nodes_pos (M := 800000) (w := 32) idx e) o) :=
  gather_rows_apply (N := 100000) (M := 800000) (C := 128) nodes_pos
    gather_S100000x128_S800000x1_S800000x128_1_0_n_n_0_1_1128_wf t idx e o

/-- A scatter-add of rows into a `100000 × 128` array reads, at `(n, o)`, the operand plus the update rows whose
    index is `n`. -/
theorem scatter2_apply (z : CF S100000x128) (idx : CI S800000x1) (u : CF S800000x128) (n : Fin 100000) (o : Fin 128) :
    Host.scatterAdd (F := Ideal) (φ := .f32) scatter_S100000x128_S800000x1_S800000x128_1_0_0_1 z idx u (ix2 n o)
      = z (ix2 n o) + ∑ e ∈ landsOn (M := 800000) (w := 32) idx 100000 n, u (ix2 e o) :=
  scatterAdd_rows_apply (N := 100000) (M := 800000) (C := 128)
    scatter_S100000x128_S800000x1_S800000x128_1_0_0_1_wf z idx u n o

/-! ## The small layout pieces -/

/-- The left half of a weight matrix, transposed, at `(k, o)` is the matrix at `(o, k)`. -/
theorem wT0_apply (w : CF S128x256) (k o : Fin 128) : wT0 w (ix2 k o) = w (ix2 o (lo k)) := by
  unfold wT0
  refine (transpose_apply _ _ transposes_S128x128_S128x128_1_0 (ix2 k o) (ix2 o k) (fun b => ?_)).trans ?_
  · match b with
    | ⟨0, _⟩ => rfl
    | ⟨1, _⟩ => rfl
  · refine extractStridedSlice_apply _ w slices_S128x256_S128x128_0_0 (ix2 o k) (ix2 o (lo k)) (fun a => ?_)
    match a with
    | ⟨0, _⟩ => show o.val = 0 + o.val; omega
    | ⟨1, _⟩ => show k.val = 0 + k.val; omega

/-- The right half of a weight matrix, transposed, at `(k, o)` is the matrix at `(o, 128 + k)`. -/
theorem wT1_apply (w : CF S128x256) (k o : Fin 128) : wT1 w (ix2 k o) = w (ix2 o (hi k)) := by
  unfold wT1
  refine (transpose_apply _ _ transposes_S128x128_S128x128_1_0 (ix2 k o) (ix2 o k) (fun b => ?_)).trans ?_
  · match b with
    | ⟨0, _⟩ => rfl
    | ⟨1, _⟩ => rfl
  · refine extractStridedSlice_apply _ w slices_S128x256_S128x128_0_128 (ix2 o k) (ix2 o (hi k)) (fun a => ?_)
    match a with
    | ⟨0, _⟩ => show o.val = 0 + o.val; omega
    | ⟨1, _⟩ => show 128 + k.val = 128 + k.val; rfl

/-- A bias as a `1 × 128` row reads, at `(0, o)`, the bias at `o`. -/
theorem biasRow_apply (b : CF S128) (o : Fin 128) : biasRow b (ix2 (0 : Fin 1) o) = b (ix1 o) := by
  unfold biasRow
  refine (shapeCast_addUnit_apply ![128] b shapeCasts_S128_S1x128 (ix2 (0 : Fin 1) o)).trans (congrArg b ?_)
  funext a
  match a with
  | ⟨0, _⟩ => rfl

variable (x0 : CF S100000x128) (x1 : CF S800000x128) (x2 x3 : CI S800000) (x4 : CF S128x256) (x5 : CF S128)
  (x6 : CF S128x256) (x7 : CF S128)

/-- The row an edge reads through normalised indices, the edges arriving at a node, and the larger of a node's degree
    and one, as the kernel program computes them. -/
abbrev rowK (x : CI S800000) : Fin 800000 → Fin 100000 := gatherRow 100000 nodes_pos (M := 800000) (w := 32) (rowIdx x)
abbrev landK : Fin 100000 → Finset (Fin 800000) := landsOn (M := 800000) (w := 32) (asCol x3) 100000
abbrev denK : Fin 100000 → EReal := fun n => max (degK x3 (ix1 n)) (Ideal.ofBits .f32 0x3F800000#32)

/-! ## The stages -/

/-- The kernel's message of edge `e`. -/
theorem kMsg (e : Fin 800000) (o : Fin 128) :
    msgK x0 x1 x2 x4 x5 (ix2 e o) = msgF x0 x1 (rowK x2) x4 x5 e o := by
  unfold msgK msgOf msgF
  show ((∑ k : Fin 128, srcRows x0 x2 (ix2 e k) * wT0 x4 (ix2 k o)) + (∑ k : Fin 128, x1 (ix2 e k) * wT1 x4 (ix2 k o)))
      + biasRow x5 (ix2 (0 : Fin 1) o) = _
  rw [biasRow_apply]
  refine congrArg₂ (· + ·) (congrArg₂ (· + ·) (Finset.sum_congr rfl fun k _ => ?_) (Finset.sum_congr rfl fun k _ => ?_)) rfl
  · rw [wT0_apply]
    refine congrArg₂ (· * ·) ?_ rfl
    unfold srcRows
    rw [gather2_apply]
    rfl
  · rw [wT1_apply]

/-- The kernel's aggregate at node `n`. -/
theorem kAgg (n : Fin 100000) (o : Fin 128) :
    aggK x0 x1 x2 x3 x4 x5 (ix2 n o) = aggF (msgF x0 x1 (rowK x2) x4 x5) (landK x3) n o := by
  unfold aggK
  rw [scatter2_apply]
  unfold aggF
  exact congrArg₂ (· + ·) rfl (Finset.sum_congr rfl fun e _ => kMsg x0 x1 x2 x4 x5 e o)

/-- The constant one repeated over the nodes reads the float word for one at every node. -/
theorem ones_apply (h : S_.BroadcastsInDim S100000 ![]) (i : S100000.Idx) :
    broadcastInDim S100000 ![] h (constant (F := Ideal) S_ .f32 0x3F800000#32) i
      = Ideal.ofBits .f32 0x3F800000#32 :=
  broadcastInDim_apply _ h _ i (fun a => a.elim0) (fun a => a.elim0)

/-- A pointwise quotient of two arrays reads, at an index, the quotient of the entries. -/
theorem quotAt (a b : S100000.Idx → EReal) (i : S100000.Idx) :
    Host.divf (F := Ideal) (φ := .f32) a b i = Ideal.div (a i) (b i) := rfl

/-- A pointwise maximum of two arrays reads, at an index, the larger of the entries. -/
theorem maxAt (a b : S100000.Idx → EReal) (i : S100000.Idx) :
    maximumf (F := Ideal) (φ := .f32) a b i = max (a i) (b i) := rfl

/-- The kernel's scale at node `n`: one over the larger of the degree and one. -/
theorem kInv (n : Fin 100000) :
    invK x3 (ix2 n (0 : Fin 1)) = Ideal.div (Ideal.ofBits .f32 0x3F800000#32) (denK x3 n) := by
  unfold invK
  refine (shapeCast_apply _ shapeCasts_S100000_S100000x1 (ix2 n (0 : Fin 1)) (ix1 n) ?_).trans ?_
  · rw [Shape.rowMajor_val_one, Shape.rowMajor_val_two]
    show n.val = n.val * 1 + 0
    omega
  · rw [quotAt, maxAt, ones_apply]

/-- The kernel's updated feature of node `n`. -/
theorem kNewh (n : Fin 100000) (o : Fin 128) :
    newhK x0 x1 x2 x3 x4 x5 x6 x7 (ix2 n o)
      = newhF x0 (aggF (msgF x0 x1 (rowK x2) x4 x5) (landK x3)) (denK x3) x6 x7 n o := by
  unfold newhK applyOf newhF
  show max (((∑ k : Fin 128, x0 (ix2 n k) * wT0 x6 (ix2 k o))
      + (∑ k : Fin 128, (aggK x0 x1 x2 x3 x4 x5 (ix2 n k) * invK x3 (ix2 n (0 : Fin 1))) * wT1 x6 (ix2 k o)))
    + biasRow x7 (ix2 (0 : Fin 1) o)) _ = _
  rw [biasRow_apply, kInv]
  refine congrArg₂ max (congrArg₂ (· + ·) (congrArg₂ (· + ·) (Finset.sum_congr rfl fun k _ => ?_)
    (Finset.sum_congr rfl fun k _ => ?_)) rfl) rfl
  · rw [wT0_apply]
  · rw [wT1_apply, kAgg]

/-- The first result with its unit middle axis reads the updated node features. -/
theorem kOutH (n : Fin 100000) (o : Fin 128) :
    outH x0 x1 x2 x3 x4 x5 x6 x7 (ix3 n (0 : Fin 1) o) = newhK x0 x1 x2 x3 x4 x5 x6 x7 (ix2 n o) := by
  unfold outH
  refine broadcastInDim_apply _ bcast_S100000x128_S100000x1x128_0_2 _ (ix3 n (0 : Fin 1) o) (ix2 n o) (fun a => ?_)
  match a with
  | ⟨0, _⟩ => show n.val = if (100000 : Nat) = 1 then 0 else n.val; rw [if_neg (by decide)]
  | ⟨1, _⟩ => show o.val = if (128 : Nat) = 1 then 0 else o.val; rw [if_neg (by decide)]

/-- The second result with its unit middle axis reads half the sum of the two endpoint rows. -/
theorem kOutE (e : Fin 800000) (o : Fin 128) :
    outE x0 x1 x2 x3 x4 x5 x6 x7 (ix3 e (0 : Fin 1) o)
      = neweF (newhF x0 (aggF (msgF x0 x1 (rowK x2) x4 x5) (landK x3)) (denK x3) x6 x7) (rowK x2) (rowK x3) e o := by
  unfold outE
  refine (broadcastInDim_apply _ bcast_S800000x128_S800000x1x128_0_2 _ (ix3 e (0 : Fin 1) o) (ix2 e o) (fun a => ?_)).trans ?_
  · match a with
    | ⟨0, _⟩ => show e.val = if (800000 : Nat) = 1 then 0 else e.val; rw [if_neg (by decide)]
    | ⟨1, _⟩ => show o.val = if (128 : Nat) = 1 then 0 else o.val; rw [if_neg (by decide)]
  · rw [mulf_apply, addf_apply, gather2_apply, gather2_apply, kNewh, kNewh]
    rfl

end Cert.KernelIdeal.Val

end
-- ==== Proof.LibRowScatter3.lean ====
/-
  A row gather and a row scatter-add over a table with a middle axis of size one, read at an index.

  The table `x` has `N` rows, a middle axis of size one and `C` columns: its entries are `x (n, 0, c)`. The index
  column `idx` has `M` integer words, exactly as for a table without the middle axis.

  * The gather of rows takes result row `e` from the operand row `idx[e]` read as a signed integer and clamped into
    `[0, N − 1]`: entry `(e, 0, c)` of the result is `x (gatherRow idx e, 0, c)`.
  * The scatter-add of rows adds update row `e` into the operand row `idx[e]` read as a signed integer and not
    clamped (an update whose row is outside `[0, N − 1]` is dropped): entry `(n, 0, c)` of the result is
    `x (n, 0, c) + ∑ e ∈ landsOn idx N n, upd (e, 0, c)`, the sum over the update rows whose index is `n`.

  The row `gatherRow idx e` and the set `landsOn idx N n` are the same terms as for the table without the middle
  axis: the axis of size one carries the coordinate `0` on both sides and changes neither the row that is read nor the
  rows that land.
-/
import Idealize.ShloMosaic.Lib.ValueIdx
import Idealize.ShloMosaic.PureOps.Ideal.Laws
import Idealize.ShloMosaic.Lib.Pipeline.Value
import proofs.«130156_j85152021611247_2_alg».proof.Proof.LibRowScatter

noncomputable section

open scoped BigOperators

namespace Cert.Lib.RowScatter3

open Idealize.ShloMosaic Idealize.ShloMosaic.ValueIdx
open Cert.Lib.RowScatter (gatherRow landsOn mem_kept resultIdx?_eq_some_iff)

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl (fun a _ => ?_)
  rw [Fintype.sum_prod_type]
  rfl

/-! ## The gather of rows -/

section Gather
variable {α : Type}

/-- The dimension numbers of a gather of whole rows of a table with a middle axis of size one: operand `[N, 1, C]`,
    start indices `[M, 1]`, result `[M, 1, C]`; the result's axes 1 and 2 are the offset axes, the operand's axis 0 is
    collapsed and is the one the start index names, the index vector lies along axis 1 of the start indices, and a
    slice is one row, `1 × 1 × C`. Their conditions `wf` are decided on literal shapes. -/
abbrev rowGatherDims3 (N M C : Nat)
    (wf : GatherDims.WF ⟨3, ![N, 1, C]⟩ ⟨2, ![M, 1]⟩ ⟨3, ![M, 1, C]⟩ [1, 2] [0] [] [0] [] 1 ![1, 1, C]) :
    GatherDims ⟨3, ![N, 1, C]⟩ ⟨2, ![M, 1]⟩ ⟨3, ![M, 1, C]⟩ where
  offsetDims := [1, 2]
  collapsedSliceDims := [0]
  operandBatchingDims := []
  startIndicesBatchingDims := []
  startIndexMap := [0]
  indexVectorDim := 1
  sliceSizes := ![1, 1, C]
  wf := wf

/-- On the row axis the operand index of result entry `(e, 0, c)` is the clamped start index: no batching coordinate,
    and no offset coordinate on a collapsed axis. -/
theorem gather3_operandIdx_zero {N M C w : Nat}
    (wf : GatherDims.WF ⟨3, ![N, 1, C]⟩ ⟨2, ![M, 1]⟩ ⟨3, ![M, 1, C]⟩ [1, 2] [0] [] [0] [] 1 ![1, 1, C])
    (idx : IVec ⟨2, ![M, 1]⟩ w) (e : Fin M) (c : Fin C) :
    ((rowGatherDims3 N M C wf).operandIdx (ix3 e (0 : Fin 1) c) idx 0).val
      = min (idx (ix2 e (0 : Fin 1))).toInt.toNat (N - 1) := by
  show (rowGatherDims3 N M C wf).start (ix3 e (0 : Fin 1) c) idx 0
    + (rowGatherDims3 N M C wf).batchCoord (ix3 e (0 : Fin 1) c) 0
    + (rowGatherDims3 N M C wf).offCoord (ix3 e (0 : Fin 1) c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (rowGatherDims3 N M C wf).startIndexMap from List.mem_singleton.mpr rfl)]
  have hsi : (rowGatherDims3 N M C wf).siIdx (ix3 e (0 : Fin 1) c)
      ⟨List.idxOf (0 : Fin 3) (rowGatherDims3 N M C wf).startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- An operand axis other than the row axis is neither collapsed nor a batching axis: it is a kept axis. -/
theorem gather3_mem_sKept {N M C : Nat}
    (wf : GatherDims.WF ⟨3, ![N, 1, C]⟩ ⟨2, ![M, 1]⟩ ⟨3, ![M, 1, C]⟩ [1, 2] [0] [] [0] [] 1 ![1, 1, C])
    (a : Fin 3) (ha : a ≠ 0) : a ∈ (rowGatherDims3 N M C wf).sKept :=
  (GatherDims.mem_sKept _ _).mpr ⟨fun h => ha (List.mem_singleton.mp h), List.not_mem_nil⟩

/-- On an operand axis other than the row axis the start is `0` (the start index does not name the axis) and there is
    no batching coordinate: the operand index is the offset coordinate alone. -/
theorem gather3_operandIdx_off {N M C w : Nat}
    (wf : GatherDims.WF ⟨3, ![N, 1, C]⟩ ⟨2, ![M, 1]⟩ ⟨3, ![M, 1, C]⟩ [1, 2] [0] [] [0] [] 1 ![1, 1, C])
    (idx : IVec ⟨2, ![M, 1]⟩ w) (j : (⟨3, ![M, 1, C]⟩ : Shape).Idx) (a : Fin 3) (ha : a ≠ 0) :
    ((rowGatherDims3 N M C wf).operandIdx j idx a).val = (rowGatherDims3 N M C wf).offCoord j a := by
  show (rowGatherDims3 N M C wf).start j idx a + (rowGatherDims3 N M C wf).batchCoord j a
    + (rowGatherDims3 N M C wf).offCoord j a = _
  rw [GatherDims.batchCoord_eq_zero _ _ _ List.not_mem_nil]
  have hs : (rowGatherDims3 N M C wf).start j idx a = 0 := by
    unfold GatherDims.start
    rw [dif_neg (fun h => ha (List.mem_singleton.mp h))]
  rw [hs]
  simp only [Nat.add_zero, Nat.zero_add]

/-- On the middle axis, of size one, the operand index of result entry `(e, 0, c)` is `0`: the offset coordinate is
    the result's middle coordinate. -/
theorem gather3_operandIdx_one {N M C w : Nat}
    (wf : GatherDims.WF ⟨3, ![N, 1, C]⟩ ⟨2, ![M, 1]⟩ ⟨3, ![M, 1, C]⟩ [1, 2] [0] [] [0] [] 1 ![1, 1, C])
    (idx : IVec ⟨2, ![M, 1]⟩ w) (e : Fin M) (c : Fin C) :
    ((rowGatherDims3 N M C wf).operandIdx (ix3 e (0 : Fin 1) c) idx 1).val = 0 := by
  rw [gather3_operandIdx_off wf idx _ 1 (by decide)]
  unfold GatherDims.offCoord
  rw [dif_pos (gather3_mem_sKept wf 1 (by decide))]
  rfl

/-- On the column axis the operand index of result entry `(e, 0, c)` is `c`: the offset coordinate is the result's
    column. -/
theorem gather3_operandIdx_two {N M C w : Nat}
    (wf : GatherDims.WF ⟨3, ![N, 1, C]⟩ ⟨2, ![M, 1]⟩ ⟨3, ![M, 1, C]⟩ [1, 2] [0] [] [0] [] 1 ![1, 1, C])
    (idx : IVec ⟨2, ![M, 1]⟩ w) (e : Fin M) (c : Fin C) :
    ((rowGatherDims3 N M C wf).operandIdx (ix3 e (0 : Fin 1) c) idx 2).val = c.val := by
  rw [gather3_operandIdx_off wf idx _ 2 (by decide)]
  unfold GatherDims.offCoord
  rw [dif_pos (gather3_mem_sKept wf 2 (by decide))]
  rfl

/-- The gather of rows over a table with a middle axis of size one, read at `(e, 0, c)`: the operand at row
    `gatherRow N hN idx e` — the start index `idx (e, 0)` read signed and clamped into `[0, N − 1]` —, middle
    coordinate `0` and column `c`. -/
theorem gather_rows3_apply {N M C w : Nat} (hN : 0 < N)
    (wf : GatherDims.WF ⟨3, ![N, 1, C]⟩ ⟨2, ![M, 1]⟩ ⟨3, ![M, 1, C]⟩ [1, 2] [0] [] [0] [] 1 ![1, 1, C])
    (x : (⟨3, ![N, 1, C]⟩ : Shape).Idx → α) (idx : IVec ⟨2, ![M, 1]⟩ w) (e : Fin M) (c : Fin C) :
    Host.gather (rowGatherDims3 N M C wf) x idx (ix3 e (0 : Fin 1) c)
      = x (ix3 (gatherRow N hN idx e) (0 : Fin 1) c) := by
  unfold Host.gather
  congr 1
  funext a
  match a with
  | ⟨0, _⟩ => exact Fin.ext (gather3_operandIdx_zero wf idx e c)
  | ⟨1, _⟩ => exact Fin.ext (gather3_operandIdx_one wf idx e c)
  | ⟨2, _⟩ => exact Fin.ext (gather3_operandIdx_two wf idx e c)

end Gather

/-! ## The scatter-add of rows -/

section Scatter

/-- The dimension numbers of a scatter of whole rows into a table with a middle axis of size one: operand
    `[N, 1, C]`, scatter indices `[M, 1]`, updates `[M, 1, C]`; the updates' axes 1 and 2 are the window axes, the
    operand's axis 0 is inserted and is the one the scatter index names, and the index vector lies along axis 1 of the
    scatter indices. Their conditions `wf` are decided on literal shapes. -/
abbrev rowScatterDims3 (N M C : Nat)
    (wf : ScatterDims.WF ⟨3, ![N, 1, C]⟩ ⟨2, ![M, 1]⟩ ⟨3, ![M, 1, C]⟩ [1, 2] [0] [0] 1) :
    ScatterDims ⟨3, ![N, 1, C]⟩ ⟨2, ![M, 1]⟩ ⟨3, ![M, 1, C]⟩ where
  updateWindowDims := [1, 2]
  insertedWindowDims := [0]
  scatterDimsToOperandDims := [0]
  indexVectorDim := 1
  wf := wf

/-- A statement about every one of three axes is the conjunction of the three statements. -/
theorem forall_fin_three {P : Fin 3 → Prop} : (∀ a, P a) ↔ P 0 ∧ P 1 ∧ P 2 := by
  constructor
  · intro h
    exact ⟨h 0, h 1, h 2⟩
  · rintro ⟨h0, h1, h2⟩ a
    match a with
    | ⟨0, _⟩ => exact h0
    | ⟨1, _⟩ => exact h1
    | ⟨2, _⟩ => exact h2

/-- On the row axis the start of update entry `(e, b, c)` is the index word `idx (e, 0)` read as a signed integer. -/
theorem scatter3_start_zero {N M C w : Nat}
    (wf : ScatterDims.WF ⟨3, ![N, 1, C]⟩ ⟨2, ![M, 1]⟩ ⟨3, ![M, 1, C]⟩ [1, 2] [0] [0] 1)
    (idx : IVec ⟨2, ![M, 1]⟩ w) (e : Fin M) (b : Fin 1) (c : Fin C) :
    (rowScatterDims3 N M C wf).start (ix3 e b c) idx 0 = (idx (ix2 e (0 : Fin 1))).toInt := by
  unfold ScatterDims.start
  rw [dif_pos (show (0 : Fin 3) ∈ (rowScatterDims3 N M C wf).scatterDimsToOperandDims from List.mem_singleton.mpr rfl)]
  have hsi : (rowScatterDims3 N M C wf).siIdx (ix3 e b c)
      ⟨List.idxOf (0 : Fin 3) (rowScatterDims3 N M C wf).scatterDimsToOperandDims,
        List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On an axis other than the row axis, which the scatter index does not name, the start is `0`. -/
theorem scatter3_start_off {N M C w : Nat}
    (wf : ScatterDims.WF ⟨3, ![N, 1, C]⟩ ⟨2, ![M, 1]⟩ ⟨3, ![M, 1, C]⟩ [1, 2] [0] [0] 1)
    (idx : IVec ⟨2, ![M, 1]⟩ w) (j : (⟨3, ![M, 1, C]⟩ : Shape).Idx) (a : Fin 3) (ha : a ≠ 0) :
    (rowScatterDims3 N M C wf).start j idx a = 0 := by
  unfold ScatterDims.start
  rw [dif_neg (fun h => ha (List.mem_singleton.mp h))]

/-- On the row axis, an inserted one, the window coordinate is `0`. -/
theorem scatter3_window_zero {N M C : Nat}
    (wf : ScatterDims.WF ⟨3, ![N, 1, C]⟩ ⟨2, ![M, 1]⟩ ⟨3, ![M, 1, C]⟩ [1, 2] [0] [0] 1)
    (j : (⟨3, ![M, 1, C]⟩ : Shape).Idx) :
    (rowScatterDims3 N M C wf).window j 0 = 0 := by
  unfold ScatterDims.window
  rw [dif_neg (fun h => (mem_kept _ _).mp h (List.mem_singleton.mpr rfl))]

/-- On the middle axis the window coordinate of update entry `(e, b, c)` is `b`. -/
theorem scatter3_window_one {N M C : Nat}
    (wf : ScatterDims.WF ⟨3, ![N, 1, C]⟩ ⟨2, ![M, 1]⟩ ⟨3, ![M, 1, C]⟩ [1, 2] [0] [0] 1)
    (e : Fin M) (b : Fin 1) (c : Fin C) :
    (rowScatterDims3 N M C wf).window (ix3 e b c) 1 = b.val := by
  unfold ScatterDims.window
  rw [dif_pos ((mem_kept _ _).mpr
    (fun h => absurd (List.mem_singleton.mp h) (show ¬ ((1 : Fin 3) = 0) by decide)))]
  rfl

/-- On the column axis the window coordinate of update entry `(e, b, c)` is `c`. -/
theorem scatter3_window_two {N M C : Nat}
    (wf : ScatterDims.WF ⟨3, ![N, 1, C]⟩ ⟨2, ![M, 1]⟩ ⟨3, ![M, 1, C]⟩ [1, 2] [0] [0] 1)
    (e : Fin M) (b : Fin 1) (c : Fin C) :
    (rowScatterDims3 N M C wf).window (ix3 e b c) 2 = c.val := by
  unfold ScatterDims.window
  rw [dif_pos ((mem_kept _ _).mpr
    (fun h => absurd (List.mem_singleton.mp h) (show ¬ ((2 : Fin 3) = 0) by decide)))]
  rfl

/-- Update entry `(e, b, c')` lands at operand entry `(n, 0, c)` exactly when the columns agree and the signed index
    word of row `e` is `n`: on the middle axis both coordinates are `0`, the only element of a range of size one. -/
theorem resultIdx?_rows3 {N M C w : Nat}
    (wf : ScatterDims.WF ⟨3, ![N, 1, C]⟩ ⟨2, ![M, 1]⟩ ⟨3, ![M, 1, C]⟩ [1, 2] [0] [0] 1)
    (idx : IVec ⟨2, ![M, 1]⟩ w) (e : Fin M) (b : Fin 1) (c' c : Fin C) (n : Fin N) :
    (rowScatterDims3 N M C wf).resultIdx? (ix3 e b c') idx = some (ix3 n (0 : Fin 1) c)
      ↔ c' = c ∧ (idx (ix2 e (0 : Fin 1))).toInt = (n.val : Int) := by
  rw [resultIdx?_eq_some_iff]
  rw [forall_fin_three]
  rw [scatter3_start_zero, scatter3_window_zero, scatter3_start_off wf idx _ 1 (by decide), scatter3_window_one,
    scatter3_start_off wf idx _ 2 (by decide), scatter3_window_two]
  show ((idx (ix2 e (0 : Fin 1))).toInt + ((0 : Nat) : Int) = (n.val : Int)
    ∧ (0 : Int) + (b.val : Int) = ((0 : Nat) : Int)
    ∧ (0 : Int) + (c'.val : Int) = (c.val : Int)) ↔ _
  have hb := b.isLt
  constructor
  · rintro ⟨h0, _, h2⟩
    exact ⟨Fin.ext (by omega), by omega⟩
  · rintro ⟨rfl, h⟩
    exact ⟨by omega, by omega, by omega⟩

/-- The scatter-add of rows into a table with a middle axis of size one, read at `(n, 0, c)`: the operand's entry plus
    the sum, over the update rows `e` whose signed index word is `n`, of the update's entry `(e, 0, c)`. -/
theorem scatterAdd_rows3_apply {N M C w : Nat}
    (wf : ScatterDims.WF ⟨3, ![N, 1, C]⟩ ⟨2, ![M, 1]⟩ ⟨3, ![M, 1, C]⟩ [1, 2] [0] [0] 1)
    (x : FVec Ideal ⟨3, ![N, 1, C]⟩ .f32) (idx : IVec ⟨2, ![M, 1]⟩ w) (upd : FVec Ideal ⟨3, ![M, 1, C]⟩ .f32)
    (n : Fin N) (c : Fin C) :
    Host.scatterAdd (F := Ideal) (rowScatterDims3 N M C wf) x idx upd (ix3 n (0 : Fin 1) c)
      = x (ix3 n (0 : Fin 1) c) + ∑ e ∈ landsOn idx N n, upd (ix3 e (0 : Fin 1) c) := by
  unfold Host.scatterAdd
  rw [Ideal.hostScatterAdd_def]
  unfold Ideal.hostScatterAdd
  congr 1
  rw [Finset.sum_filter, sum_idx3]
  unfold landsOn
  rw [Finset.sum_filter]
  refine Finset.sum_congr rfl (fun e _ => ?_)
  rw [Fin.sum_univ_one]
  simp only [resultIdx?_rows3]
  by_cases hP : (idx (ix2 e (0 : Fin 1))).toInt = (n.val : Int)
  · simp [hP]
  · simp [hP]

end Scatter

end Cert.Lib.RowScatter3

end
-- ==== Proof.Algebra.lean ====
/-
  The three facts about extended reals that join the kernel's arithmetic to the reference's.

  * The float word `0x3F800000` is the number one.
  * Dividing by a number that is at least one is multiplying by its reciprocal: `a / d = a · (1 / d)` for
    `d = max x 1`, whatever extended reals `a` and `x` are — `d` is not zero, so the quotient is `a · d⁻¹`, and
    `1 / d = 1 · d⁻¹ = d⁻¹`. No finiteness is needed.
  * A sum over 256 terms is the sum of its first 128 terms plus the sum of its last 128: addition of extended reals is
    commutative and associative.
-/
import Idealize.ShloMosaic.PureOps.Ideal
import Idealize.ShloMosaic.PureOps.Ideal.Laws

noncomputable section

open scoped BigOperators

namespace Cert.Spec

open Idealize.ShloMosaic

/-- The float word `0x3F800000` is one. -/
theorem ofBits_one : Ideal.ofBits .f32 0x3F800000#32 = 1 := by
  simp [Ideal.ofBits, Ideal.ieee, -EReal.coe_mul]; norm_num

/-- A quotient by `max x 1` is the product with the quotient of one by it. -/
theorem div_max_one (a x : EReal) :
    Ideal.div a (max x (Ideal.ofBits .f32 0x3F800000#32))
      = a * Ideal.div (Ideal.ofBits .f32 0x3F800000#32) (max x (Ideal.ofBits .f32 0x3F800000#32)) := by
  rw [ofBits_one]
  have hd : max x (1 : EReal) ≠ 0 := (lt_of_lt_of_le zero_lt_one (le_max_right x 1)).ne'
  unfold Ideal.div
  rw [if_neg hd, if_neg hd, one_mul]

/-- A sum over `Fin 256` split at 128. -/
theorem sum_split (f : Fin 256 → EReal) :
    ∑ k : Fin 256, f k
      = (∑ k : Fin 128, f ⟨k.val, by have := k.isLt; omega⟩) + (∑ k : Fin 128, f ⟨128 + k.val, by have := k.isLt; omega⟩) :=
  Fin.sum_univ_add (a := 128) (b := 128) (f : Fin (128 + 128) → EReal)

end Cert.Spec

end
-- ==== Proof.RefStages.lean ====
/-
  The reference program's two results, index by index, as the plain formulas.

  The reference carries a unit middle axis on every array, joins the gathered source features and the edge features
  into one `256`-wide row before ONE matrix product, and divides the aggregate by the larger of the degree and one.
  Read at an index `(·, 0, o)`:

    * a gather of rows reads the table at the clamped index row; a scatter-add of rows adds, into row `n`, the update
      rows whose index is `n`;
    * a two-piece concatenation along the last axis reads its first piece on columns `0 … 127` and its second on
      columns `128 … 255`, so the `256`-term sum of the product splits into the two `128`-term sums;
    * the quotient by the larger of the degree and one is the product with one over it.
-/
import proofs.«130156_j85152021611247_2_alg».proof.Proof.Gen.ReferenceIdeal.Read
import proofs.«130156_j85152021611247_2_alg».proof.Proof.LibRowScatter3
import proofs.«130156_j85152021611247_2_alg».proof.Proof.Algebra
import proofs.«130156_j85152021611247_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Read Cert.ReferenceIdeal.Facts₀
open Idealize.ShloMosaic Idealize.ShloMosaic.ValueIdx Cert.Spec Cert.Lib.RowScatter

/-- Float and integer array contents at the ideal values. -/
abbrev CF (s : Shape) : Type := (⟨s, .f32⟩ : BufTy).Contents (Elt Ideal)
abbrev CI (s : Shape) : Type := (⟨s, .i32⟩ : BufTy).Contents (Elt Ideal)

/-! ## The gather and the scatter-add of rows, at this program's shapes -/

/-- A gather of rows of a `100000 × 1 × 128` table reads, at `(e, 0, o)`, the table at the clamped index row. -/
theorem gather3_apply (t : CF S100000x1x128) (idx : CI S800000x1) (e : Fin 800000) (o : Fin 128) :
    Host.gather gather_S100000x1x128_S800000x1_S800000x1x128_12_0_n_n_0_1_11128 t idx (ix3 e (0 : Fin 1) o)
      = t (ix3 (gatherRow 100000 nodes_pos (M := 800000) (w := 32) idx e) (0 : Fin 1) o) :=
  Cert.Lib.RowScatter3.gather_rows3_apply (N := 100000) (M := 800000) (C := 128) nodes_pos
    gather_S100000x1x128_S800000x1_S800000x1x128_12_0_n_n_0_1_11128_wf t idx e o

/-- A scatter-add of rows into a `100000 × 1 × 128` array reads, at `(n, 0, o)`, the operand plus the update rows
    whose index is `n`. -/
theorem scatter3_apply (z : CF S100000x1x128) (idx : CI S800000x1) (u : CF S800000x1x128) (n : Fin 100000) (o : Fin 128) :
    Host.scatterAdd (F := Ideal) (φ := .f32) scatter_S100000x1x128_S800000x1_S800000x1x128_12_0_0_1 z idx u (ix3 n (0 : Fin 1) o)
      = z (ix3 n (0 : Fin 1) o) + ∑ e ∈ landsOn (M := 800000) (w := 32) idx 100000 n, u (ix3 e (0 : Fin 1) o) :=
  Cert.Lib.RowScatter3.scatterAdd_rows3_apply (N := 100000) (M := 800000) (C := 128)
    scatter_S100000x1x128_S800000x1_S800000x1x128_12_0_0_1_wf z idx u n o

variable (x0 : CF S100000x128) (x1 : CF S800000x128) (x2 x3 : CI S800000) (x4 : CF S128x256) (x5 : CF S128)
  (x6 : CF S128x256) (x7 : CF S128)

/-- The source row of an edge, the destination row of an edge, the edges arriving at a node, and the larger of a
    node's degree and one, as the reference computes them. -/
abbrev srcRowR : Fin 800000 → Fin 100000 := gatherRow 100000 nodes_pos (M := 800000) (w := 32) (val_main_v37 (F := Ideal) x2)
abbrev dstRowR : Fin 800000 → Fin 100000 := gatherRow 100000 nodes_pos (M := 800000) (w := 32) (val_main_v44 (F := Ideal) x3)
abbrev msgRowR : Fin 800000 → Fin 100000 := gatherRow 100000 nodes_pos (M := 800000) (w := 32) (val_main_v7 (F := Ideal) x2)
abbrev landR : Fin 100000 → Finset (Fin 800000) := landsOn (M := 800000) (w := 32) (val_main_v15 (F := Ideal) x3) 100000
abbrev denR : Fin 100000 → EReal := fun n => max (val_main_v20 (F := Ideal) x3 (ix1 n)) (Ideal.ofBits .f32 0x3F800000#32)

/-! ## The messages -/

theorem v8_apply (e : Fin 800000) (k : Fin 128) :
    val_main_v8 (F := Ideal) x0 x2 (ix3 e (0 : Fin 1) k) = x0 (ix2 (msgRowR x2 e) k) := by
  unfold val_main_v8
  rw [gather3_apply, val_main_v0_apply]
  exact congrArg x0 (funext fun a => Fin.ext (by match a with | ⟨0, _⟩ => rfl | ⟨1, _⟩ => rfl))

/-- On the first 128 columns the joined row is the gathered source feature. -/
theorem v9_lo (e : Fin 800000) (o : Fin 128) (k : Fin 128) :
    val_main_v9 (F := Ideal) x0 x1 x2 (lidx_main_v10 (ix3 e (0 : Fin 1) o) (lo k)) = x0 (ix2 (msgRowR x2 e) k) := by
  unfold val_main_v9
  refine (concatenate_pair_apply_left 2 _ _ concatenates_S800000x1x128_S800000x1x128_S800000x1x256_d2 _ rfl
    (ix3 e (0 : Fin 1) k) (fun b => ?_)).trans (v8_apply x0 x2 e k)
  match b with
  | ⟨0, _⟩ => rfl
  | ⟨1, _⟩ => rfl
  | ⟨2, _⟩ => rfl

/-- On the last 128 columns the joined row is the edge feature. -/
theorem v9_hi (e : Fin 800000) (o : Fin 128) (k : Fin 128) :
    val_main_v9 (F := Ideal) x0 x1 x2 (lidx_main_v10 (ix3 e (0 : Fin 1) o) (hi k)) = x1 (ix2 e k) := by
  unfold val_main_v9
  refine (concatenate_pair_apply_right 2 _ _ concatenates_S800000x1x128_S800000x1x128_S800000x1x256_d2 _ rfl rfl
    (ix3 e (0 : Fin 1) k) (fun b hb => ?_) ?_).trans ?_
  · match b with
    | ⟨0, _⟩ => rfl
    | ⟨1, _⟩ => rfl
    | ⟨2, _⟩ => exact absurd rfl hb
  · show k.val + 128 = 128 + k.val
    omega
  · rw [val_main_v1_apply]
    exact congrArg x1 (funext fun a => Fin.ext (by match a with | ⟨0, _⟩ => rfl | ⟨1, _⟩ => rfl))

/-- The reference's message of edge `e`. -/
theorem refMsg (e : Fin 800000) (o : Fin 128) :
    val_main_v13 (F := Ideal) x0 x1 x2 x4 x5 (ix3 e (0 : Fin 1) o) = msgF x0 x1 (msgRowR x2) x4 x5 e o := by
  rw [val_main_v13_apply, val_main_v10_apply, val_main_v12_apply, val_main_v11_apply, sum_split]
  unfold msgF
  simp only [Ideal.addf_def]
  refine congrArg₂ (· + ·) (congrArg₂ (· + ·) (Finset.sum_congr rfl fun k _ => ?_) (Finset.sum_congr rfl fun k _ => ?_)) ?_
  · refine congrArg₂ (· * ·) (v9_lo x0 x1 x2 e o k) (congrArg x4 (funext fun a => Fin.ext ?_))
    match a with
    | ⟨0, _⟩ => rfl
    | ⟨1, _⟩ => rfl
  · refine congrArg₂ (· * ·) (v9_hi x0 x1 x2 e o k) (congrArg x4 (funext fun a => Fin.ext ?_))
    match a with
    | ⟨0, _⟩ => rfl
    | ⟨1, _⟩ => rfl
  · exact congrArg x5 (funext fun a => Fin.ext (by match a with | ⟨0, _⟩ => rfl))

/-! ## The aggregate and its mean -/

/-- The reference's aggregate at node `n`. -/
theorem refAgg (n : Fin 100000) (o : Fin 128) :
    val_main_v16 (F := Ideal) x0 x1 x2 x3 x4 x5 (ix3 n (0 : Fin 1) o)
      = aggF (msgF x0 x1 (msgRowR x2) x4 x5) (landR x3) n o := by
  unfold val_main_v16
  rw [scatter3_apply, val_main_v14_apply]
  unfold aggF
  exact congrArg₂ (· + ·) rfl (Finset.sum_congr rfl fun e _ => refMsg x0 x1 x2 x4 x5 e o)

/-- The reference's divisor at node `n`: the larger of the degree and one. -/
theorem refDen (n : Fin 100000) (o : Fin 128) :
    val_main_v24 (F := Ideal) x3 (ix3 n (0 : Fin 1) o) = denR x3 n := by
  rw [val_main_v24_apply, val_main_v23_apply, val_main_v22_apply, val_main_v21_apply]
  show max (val_main_v20 (F := Ideal) x3 _) _ = _
  exact congrArg₂ max (congrArg _ (funext fun a => Fin.ext (by match a with | ⟨0, _⟩ => rfl))) rfl

/-- The reference's mean at node `n`, as the aggregate times one over the divisor. -/
theorem refMean (n : Fin 100000) (k : Fin 128) :
    val_main_v25 (F := Ideal) x0 x1 x2 x3 x4 x5 (ix3 n (0 : Fin 1) k)
      = aggF (msgF x0 x1 (msgRowR x2) x4 x5) (landR x3) n k * Ideal.div (Ideal.ofBits .f32 0x3F800000#32) (denR x3 n) := by
  rw [val_main_v25_apply, refAgg, refDen]
  exact div_max_one _ _

/-! ## The node update -/

/-- On the first 128 columns the joined row is the node feature. -/
theorem v26_lo (n : Fin 100000) (o : Fin 128) (k : Fin 128) :
    val_main_v26 (F := Ideal) x0 x1 x2 x3 x4 x5 (lidx_main_v27 (ix3 n (0 : Fin 1) o) (lo k)) = x0 (ix2 n k) := by
  unfold val_main_v26
  refine (concatenate_pair_apply_left 2 _ _ concatenates_S100000x1x128_S100000x1x128_S100000x1x256_d2 _ rfl
    (ix3 n (0 : Fin 1) k) (fun b => ?_)).trans ?_
  · match b with
    | ⟨0, _⟩ => rfl
    | ⟨1, _⟩ => rfl
    | ⟨2, _⟩ => rfl
  · rw [val_main_v0_apply]
    exact congrArg x0 (funext fun a => Fin.ext (by match a with | ⟨0, _⟩ => rfl | ⟨1, _⟩ => rfl))

/-- On the last 128 columns the joined row is the mean of the arriving messages. -/
theorem v26_hi (n : Fin 100000) (o : Fin 128) (k : Fin 128) :
    val_main_v26 (F := Ideal) x0 x1 x2 x3 x4 x5 (lidx_main_v27 (ix3 n (0 : Fin 1) o) (hi k))
      = val_main_v25 (F := Ideal) x0 x1 x2 x3 x4 x5 (ix3 n (0 : Fin 1) k) := by
  unfold val_main_v26
  refine concatenate_pair_apply_right 2 _ _ concatenates_S100000x1x128_S100000x1x128_S100000x1x256_d2 _ rfl rfl
    (ix3 n (0 : Fin 1) k) (fun b hb => ?_) ?_
  · match b with
    | ⟨0, _⟩ => rfl
    | ⟨1, _⟩ => rfl
    | ⟨2, _⟩ => exact absurd rfl hb
  · show k.val + 128 = 128 + k.val
    omega

/-- The reference's updated feature of node `n`. -/
theorem refNewh (n : Fin 100000) (o : Fin 128) :
    val_main_v31 (F := Ideal) x0 x1 x2 x3 x4 x5 x6 x7 (ix3 n (0 : Fin 1) o)
      = newhF x0 (aggF (msgF x0 x1 (msgRowR x2) x4 x5) (landR x3)) (denR x3) x6 x7 n o := by
  rw [val_main_v31_apply, val_main_v30_apply, val_main_v27_apply, val_main_v29_apply, val_main_v28_apply,
    val_main_call0_v0_apply, sum_split]
  unfold newhF
  simp only [Ideal.maximumf_def, Ideal.addf_def]
  refine congrArg₂ max (congrArg₂ (· + ·) (congrArg₂ (· + ·) (Finset.sum_congr rfl fun k _ => ?_)
    (Finset.sum_congr rfl fun k _ => ?_)) ?_) rfl
  · refine congrArg₂ (· * ·) (v26_lo x0 x1 x2 x3 x4 x5 n o k) (congrArg x6 (funext fun a => Fin.ext ?_))
    match a with
    | ⟨0, _⟩ => rfl
    | ⟨1, _⟩ => rfl
  · refine congrArg₂ (· * ·) ((v26_hi x0 x1 x2 x3 x4 x5 n o k).trans (refMean x0 x1 x2 x3 x4 x5 n k))
      (congrArg x6 (funext fun a => Fin.ext ?_))
    match a with
    | ⟨0, _⟩ => rfl
    | ⟨1, _⟩ => rfl
  · exact congrArg x7 (funext fun a => Fin.ext (by match a with | ⟨0, _⟩ => rfl))

/-! ## The edge update -/

/-- The reference's updated feature of edge `e`. -/
theorem refNewe (e : Fin 800000) (o : Fin 128) :
    val_main_v48 (F := Ideal) x0 x1 x2 x3 x4 x5 x6 x7 (ix3 e (0 : Fin 1) o)
      = neweF (newhF x0 (aggF (msgF x0 x1 (msgRowR x2) x4 x5) (landR x3)) (denR x3) x6 x7) (srcRowR x2) (dstRowR x3) e o := by
  rw [val_main_v48_apply, val_main_v46_apply, val_main_v47_apply]
  unfold neweF val_main_v38 val_main_v45
  rw [gather3_apply, gather3_apply, refNewh, refNewh]
  rfl

end Cert.ReferenceIdeal.RefValue

end
-- ==== Proof.Bridge.lean ====
/-
  The two programs compute one function.

  Index by index, both results of the reference and both results of the kernel program are the layer's plain
  formulas; the rows an edge reads, the edges that arrive at a node and the degrees are computed by the two programs
  with the very same operations of the index arguments, so the formulas are the same terms. Hence each result array
  of the reference is the corresponding result array of the kernel program.
-/
import proofs.«130156_j85152021611247_2_alg».proof.Proof.KernelStages
import proofs.«130156_j85152021611247_2_alg».proof.Proof.RefStages

set_option maxRecDepth 16384

noncomputable section

namespace Cert.Bridge

open Idealize.ShloMosaic Idealize.ShloMosaic.ValueIdx Cert.Spec
open Cert.KernelIdeal.Val (CF CI outH outE rowIdx asCol degK rowK landK denK kOutH kOutE kNewh)
open Cert.ReferenceIdeal.Read (val_main_v31 val_main_v48)
open Cert.ReferenceIdeal.RefValue (msgRowR srcRowR dstRowR landR denR refNewh refNewe)

variable (x0 : CF Cert.KernelIdeal.S100000x128) (x1 : CF Cert.KernelIdeal.S800000x128) (x2 x3 : CI Cert.KernelIdeal.S800000)
  (x4 : CF Cert.KernelIdeal.S128x256) (x5 : CF Cert.KernelIdeal.S128) (x6 : CF Cert.KernelIdeal.S128x256)
  (x7 : CF Cert.KernelIdeal.S128)

/-- Both programs normalise the source indices of the messages by the same operations. -/
theorem msgRow_eq : msgRowR x2 = rowK x2 := rfl
/-- Both programs normalise the source indices of the edge update by the same operations. -/
theorem srcRow_eq : srcRowR x2 = rowK x2 := rfl
/-- Both programs normalise the destination indices of the edge update by the same operations. -/
theorem dstRow_eq : dstRowR x3 = rowK x3 := rfl
/-- Both programs send a message to the node its destination index names. -/
theorem land_eq : landR x3 = landK x3 := rfl
/-- Both programs count a node's arriving messages by the same scatter-add of ones. -/
theorem den_eq : denR x3 = denK x3 := rfl

/-- The reference's first result is the kernel program's. -/
theorem outH_eq : val_main_v31 (F := Ideal) x0 x1 x2 x3 x4 x5 x6 x7 = outH x0 x1 x2 x3 x4 x5 x6 x7 := by
  funext i
  obtain ⟨n, z, o, rfl⟩ : ∃ (n : Fin 100000) (z : Fin 1) (o : Fin 128), i = ix3 n z o := ⟨i 0, i 1, i 2, eq_ix3 i⟩
  obtain rfl : z = 0 := Subsingleton.elim _ _
  rw [refNewh, kOutH, kNewh, msgRow_eq, land_eq, den_eq]

/-- The reference's second result is the kernel program's. -/
theorem outE_eq : val_main_v48 (F := Ideal) x0 x1 x2 x3 x4 x5 x6 x7 = outE x0 x1 x2 x3 x4 x5 x6 x7 := by
  funext i
  obtain ⟨e, z, o, rfl⟩ : ∃ (e : Fin 800000) (z : Fin 1) (o : Fin 128), i = ix3 e z o := ⟨i 0, i 1, i 2, eq_ix3 i⟩
  obtain rfl : z = 0 := Subsingleton.elim _ _
  rw [refNewe, kOutE, msgRow_eq, land_eq, den_eq, srcRow_eq, dstRow_eq]

end Cert.Bridge

end
-- ==== Proof.lean ====
/-
  The certificate of the mean-aggregating message-passing layer: the kernel program (two kernel regions among host
  gathers and scatter-adds) against its reference, over the extended reals.

  The three frames: the two kernel programs' are the generated frame certificates; the reference's is its generated
  run with the results dropped. The ideal pass rewrote nothing, so the kernel's idealization is its own text.

  The value claim. The kernel program forms each edge's message as two `128`-wide products — the gathered source
  feature with the left half of the message weights, the edge feature with the right half — where the reference joins
  the two features into one `256`-wide row and takes ONE product; a `256`-term sum is the sum of its two halves. It
  scales the summed messages by one over the larger of the degree and one where the reference divides by it; a
  quotient by a number that is at least one is the product with its reciprocal. The node update has the same two
  shapes, and the edge update is the same operations of the updated node features. None of these laws needs a finite
  argument, so the precondition is not opened. Each program's run ends with its two results at these functions of the
  arguments (the kernel program's: its regions read as operations in one fold of host operations; the reference's: its
  generated run), and the arguments agree.
-/
import proofs.«130156_j85152021611247_2_alg».proof.Defs
import proofs.«130156_j85152021611247_2_alg».proof.Proof.Gen.Kernel
import proofs.«130156_j85152021611247_2_alg».proof.Proof.Gen.Kernel.Skeleton
import proofs.«130156_j85152021611247_2_alg».proof.Proof.Gen.Kernel.Launch
import proofs.«130156_j85152021611247_2_alg».proof.Proof.Gen.Kernel.Points
import proofs.«130156_j85152021611247_2_alg».proof.Proof.Gen.Kernel.Frame
import proofs.«130156_j85152021611247_2_alg».proof.Proof.Gen.KernelIdeal
import proofs.«130156_j85152021611247_2_alg».proof.Proof.Gen.KernelIdeal.Skeleton
import proofs.«130156_j85152021611247_2_alg».proof.Proof.Gen.KernelIdeal.Launch
import proofs.«130156_j85152021611247_2_alg».proof.Proof.Gen.KernelIdeal.Points
import proofs.«130156_j85152021611247_2_alg».proof.Proof.Gen.KernelIdeal.Frame
import proofs.«130156_j85152021611247_2_alg».proof.Proof.Gen.ReferenceIdeal
import proofs.«130156_j85152021611247_2_alg».proof.Proof.Gen.ReferenceIdeal.Run
import proofs.«130156_j85152021611247_2_alg».proof.Proof.Gen.ReferenceIdeal.Read
import proofs.«130156_j85152021611247_2_alg».proof.Proof.Gen.Pre_finite_inputs
import proofs.«130156_j85152021611247_2_alg».proof.Proof.KernelValueRun
import proofs.«130156_j85152021611247_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with their two results at one pair of functions of the arguments. -/
theorem algebraic : Cert.algebraic_KernelIdeal_ReferenceIdeal := by
  intro m ρ m' ρ' _ hagree
  refine ⟨_, _, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7⟩ := hagree c
    rw [a0, a1, a2, a3, a4, a5, a6, a7]
    exact (Cert.ReferenceIdeal.Read.val_main_v31_eq _ _ _ _ _ _ _ _).trans (Cert.Bridge.outH_eq _ _ _ _ _ _ _ _)
  · obtain ⟨a0, a1, a2, a3, a4, a5, a6, a7⟩ := hagree c
    rw [Cert.ReferenceIdeal.Read.val_main_v48_eq, a0, a1, a2, a3, a4, a5, a6, a7]
    exact Cert.Bridge.outE_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
